-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x524288 : Shape := ⟨2, ![2, 524288]⟩
abbrev S16384 : Shape := ⟨1, ![16384]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16384x128 .f32) (main_arg1 : IVec S2x524288 32) (main_arg2 : IVec S16384 32) (main_arg3 : FVec F S128x256 .f32) (main_arg4 : FVec F S128 .f32) (main_arg5 : FVec F S1x128 .f32) (main_arg6 : FVec F S1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg6 main_v13 main_v16
-- ==== Kernel.lean ====
abbrev S16384x128 : Shape := ⟨2, ![16384, 128]⟩
abbrev S2x524288 : Shape := ⟨2, ![2, 524288]⟩
abbrev S16384 : Shape := ⟨1, ![16384]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x128 : Shape := ⟨2, ![524288, 128]⟩
abbrev S524288x256 : Shape := ⟨2, ![524288, 256]⟩
abbrev S256x128 : Shape := ⟨2, ![256, 128]⟩
abbrev S1x1 : Shape := ⟨2, ![1, 1]⟩
abbrev S4096x256 : Shape := ⟨2, ![4096, 256]⟩
abbrev S4096 : Shape := ⟨1, ![4096]⟩
abbrev S4096x128 : Shape := ⟨2, ![4096, 128]⟩
abbrev S16384x16384 : Shape := ⟨2, ![16384, 16384]⟩
abbrev S524288x2 : Shape := ⟨2, ![524288, 2]⟩
abbrev S16384x1 : Shape := ⟨2, ![16384, 1]⟩
abbrev S16384x2 : Shape := ⟨2, ![16384, 2]⟩

abbrev nBuf : Space → Nat
  | .hbm => 75
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S16384, .i32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x524288, .i32⟩
  | .hbm, ⟨8, _⟩ => ⟨S524288, .i32⟩
  | .hbm, ⟨9, _⟩ => ⟨S1x524288, .i32⟩
  | .hbm, ⟨10, _⟩ => ⟨S524288, .i32⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S524288x128, .f32⟩
  | .hbm, ⟨20, _⟩ => ⟨S_, .i32⟩
  | .hbm, ⟨21, _⟩ => ⟨S524288, .i32⟩
  | .hbm, ⟨22, _⟩ => ⟨S524288, .i1⟩
  | .hbm, ⟨23, _⟩ => ⟨S_, .i32⟩
  | .hbm, ⟨24, _⟩ => ⟨S524288, .i32⟩
  | .hbm, ⟨25, _⟩ => ⟨S524288, .i32⟩
  | .hbm, ⟨26, _⟩ => ⟨S524288, .i32⟩
  | .hbm, ⟨27, _⟩ => ⟨S524288x1, .i32⟩
  | .hbm, ⟨28, _⟩ => ⟨S524288x128, .f32⟩
  | .hbm, ⟨29, _⟩ => ⟨S524288x256, .f32⟩
  | .hbm, ⟨30, _⟩ => ⟨S256x128, .f32⟩
  | .hbm, ⟨31, _⟩ => ⟨S1x128, .f32⟩
  | .hbm, ⟨32, _⟩ => ⟨S1x1, .f32⟩
  | .hbm, ⟨33, _⟩ => ⟨S524288, .f32⟩
  | .hbm, ⟨34, _⟩ => ⟨S_, .f32⟩
  | .hbm, ⟨35, _⟩ => ⟨S16384x16384, .f32⟩
  | .hbm, ⟨36, _⟩ => ⟨S_, .i32⟩
  | .hbm, ⟨37, _⟩ => ⟨S524288, .i32⟩
  | .hbm, ⟨38, _⟩ => ⟨S524288, .i1⟩
  | .hbm, ⟨39, _⟩ => ⟨S_, .i32⟩
  | .hbm, ⟨40, _⟩ => ⟨S524288, .i32⟩
  | .hbm, ⟨41, _⟩ => ⟨S524288, .i32⟩
  | .hbm, ⟨42, _⟩ => ⟨S524288, .i32⟩
  | .hbm, ⟨43, _⟩ => ⟨S_, .i32⟩
  | .hbm, ⟨44, _⟩ => ⟨S524288, .i32⟩
  | .hbm, ⟨45, _⟩ => ⟨S524288, .i1⟩
  | .hbm, ⟨46, _⟩ => ⟨S_, .i32⟩
  | .hbm, ⟨47, _⟩ => ⟨S524288, .i32⟩
  | .hbm, ⟨48, _⟩ => ⟨S524288, .i32⟩
  | .hbm, ⟨49, _⟩ => ⟨S524288, .i32⟩
  | .hbm, ⟨50, _⟩ => ⟨S524288x1, .i32⟩
  | .hbm, ⟨51, _⟩ => ⟨S524288x1, .i32⟩
  | .hbm, ⟨52, _⟩ => ⟨S524288x2, .i32⟩
  | .hbm, ⟨53, _⟩ => ⟨S16384x16384, .f32⟩
  | .hbm, ⟨54, _⟩ => ⟨S16384, .i32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S_, .i32⟩
  | .hbm, ⟨59, _⟩ => ⟨S16384, .i32⟩
  | .hbm, ⟨60, _⟩ => ⟨S16384, .i32⟩
  | .hbm, ⟨61, _⟩ => ⟨S16384, .i32⟩
  | .hbm, ⟨62, _⟩ => ⟨S_, .i32⟩
  | .hbm, ⟨63, _⟩ => ⟨S16384, .i32⟩
  | .hbm, ⟨64, _⟩ => ⟨S16384, .i1⟩
  | .hbm, ⟨65, _⟩ => ⟨S_, .i32⟩
  | .hbm, ⟨66, _⟩ => ⟨S16384, .i32⟩
  | .hbm, ⟨67, _⟩ => ⟨S16384, .i32⟩
  | .hbm, ⟨68, _⟩ => ⟨S16384, .i32⟩
  | .hbm, ⟨69, _⟩ => ⟨S16384x1, .i32⟩
  | .hbm, ⟨70, _⟩ => ⟨S16384x1, .i32⟩
  | .hbm, ⟨71, _⟩ => ⟨S16384x2, .i32⟩
  | .hbm, ⟨72, _⟩ => ⟨S_, .f32⟩
  | .hbm, ⟨73, _⟩ => ⟨S16384, .f32⟩
  | .hbm, ⟨74, _⟩ => ⟨S16384x16384, .f32⟩
  | .local _ .vmem, ⟨0, _⟩ => ⟨S4096x256, .f32⟩
  | .local _ .vmem, ⟨1, _⟩ => ⟨S4096x256, .f32⟩
  | .local _ .vmem, ⟨2, _⟩ => ⟨S256x128, .f32⟩
  | .local _ .vmem, ⟨3, _⟩ => ⟨S1x128, .f32⟩
  | .local _ .vmem, ⟨4, _⟩ => ⟨S1x128, .f32⟩
  | .local _ .vmem, ⟨5, _⟩ => ⟨S1x1, .f32⟩
  | .local _ .vmem, ⟨6, _⟩ => ⟨S4096, .f32⟩
  | .local _ .vmem, ⟨7, _⟩ => ⟨S4096, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_c_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  concatenates_S524288x128_S524288x128_S524288x256_d1 : Shape.Concatenates [S524288x128, S524288x128] S524288x256 1
  transposes_S128x256_S256x128_1_0 : S128x256.Transposes [1, 0] S256x128
  shapeCasts_S128_S1x128 : S128.ShapeCasts S1x128
  shapeCasts_S1_S1x1 : S1.ShapeCasts S1x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S4096x128_S4096 : S4096x128.Reduces [1] S4096
  inpos_S1x1_p0_0 : ∀ a, (![0, 0] : Fin 2 → Nat) a < S1x1.size a
  inb_S4096_S4096_0 : ∀ a, (![0] : Fin 1 → Nat) a + S4096.size a ≤ S4096.size a
  h_S4096 : 0 < S4096.numel
  bcast_S_S16384x16384 : S_.BroadcastsInDim S16384x16384 (![] : Fin 0 → Fin S16384x16384.rank)
  concatenates_S524288x1_S524288x1_S524288x2_d1 : Shape.Concatenates [S524288x1, S524288x1] S524288x2 1
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  gather_S16384x128_S524288x1_S524288x128_1_0_n_n_0_1_1128_wf : GatherDims.WF S16384x128 S524288x1 S524288x128 [1] [0] [] [0] [] 1 ![1, 128]
  dot_S4096x256_S256x128_S4096x128_1_0_0_1_n_n_wf : DotDims.WF S4096x256 S256x128 S4096x128 [1] [0] [0] [1] [] []
  scatter_S16384x16384_S524288x2_S524288_n_01_01_1_wf : ScatterDims.WF S16384x16384 S524288x2 S524288 [] [0, 1] [0, 1] 1
  scatter_S16384x16384_S16384x2_S16384_n_01_01_1_wf : ScatterDims.WF S16384x16384 S16384x2 S16384 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S524288x256.size a
  hwx0_0 : ∀ i : grid0.Coords, EltTy.bits .f32 = 32 ∨ (Rect.block (s := S524288x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S524288.size a
  hwx0_5 : ∀ i : grid0.Coords, EltTy.bits .f32 = 32 ∨ (Rect.block (s := S524288) S4096.size (cc0_transform_5 i) (hinb0_5 i)).WholeWords (EltTy.packing .f32)

variable [Facts₀]

def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def scatter_S16384x16384_S16384x2_S16384_n_01_01_1 : ScatterDims S16384x16384 S16384x2 S16384 where
  updateWindowDims := []
  insertedWindowDims := [0, 1]
  scatterDimsToOperandDims := [0, 1]
  indexVectorDim := 1
  wf := scatter_S16384x16384_S16384x2_S16384_n_01_01_1_wf

abbrev win0_0 : Pipeline.Window sig grid0 :=
  Pipeline.Window.ofSpec (Memref.whole main_v18) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x128 : Shape := ⟨2, ![16384, 128]⟩
abbrev S2x524288 : Shape := ⟨2, ![2, 524288]⟩
abbrev S16384 : Shape := ⟨1, ![16384]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x128 : Shape := ⟨2, ![524288, 128]⟩
abbrev S524288x256 : Shape := ⟨2, ![524288, 256]⟩
abbrev S256x128 : Shape := ⟨2, ![256, 128]⟩
abbrev S128x1 : Shape := ⟨2, ![128, 1]⟩
abbrev S1x1 : Shape := ⟨2, ![1, 1]⟩
abbrev S16384x16384 : Shape := ⟨2, ![16384, 16384]⟩
abbrev S524288x2 : Shape := ⟨2, ![524288, 2]⟩
abbrev S16384x1 : Shape := ⟨2, ![16384, 1]⟩
abbrev S16384x2 : Shape := ⟨2, ![16384, 2]⟩

abbrev nBuf : Space → Nat
  | .hbm => 105
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S16384, .i32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x524288, .i32⟩
  | .hbm, ⟨8, _⟩ => ⟨S524288, .i32⟩
  | .hbm, ⟨9, _⟩ => ⟨S1x524288, .i32⟩
  | .hbm, ⟨10, _⟩ => ⟨S524288, .i32⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S524288x128, .f32⟩
  | .hbm, ⟨20, _⟩ => ⟨S_, .i32⟩
  | .hbm, ⟨21, _⟩ => ⟨S524288, .i32⟩
  | .hbm, ⟨22, _⟩ => ⟨S524288, .i1⟩
  | .hbm, ⟨23, _⟩ => ⟨S_, .i32⟩
  | .hbm, ⟨24, _⟩ => ⟨S524288, .i32⟩
  | .hbm, ⟨25, _⟩ => ⟨S524288, .i32⟩
  | .hbm, ⟨26, _⟩ => ⟨S524288, .i32⟩
  | .hbm, ⟨27, _⟩ => ⟨S524288x1, .i32⟩
  | .hbm, ⟨28, _⟩ => ⟨S524288x128, .f32⟩
  | .hbm, ⟨29, _⟩ => ⟨S524288x256, .f32⟩
  | .hbm, ⟨30, _⟩ => ⟨S256x128, .f32⟩
  | .hbm, ⟨31, _⟩ => ⟨S524288x128, .f32⟩
  | .hbm, ⟨32, _⟩ => ⟨S1x128, .f32⟩
  | .hbm, ⟨33, _⟩ => ⟨S524288x128, .f32⟩
  | .hbm, ⟨34, _⟩ => ⟨S524288x128, .f32⟩
  | .hbm, ⟨35, _⟩ => ⟨S_, .f32⟩
  | .hbm, ⟨36, _⟩ => ⟨S524288x128, .f32⟩
  | .hbm, ⟨37, _⟩ => ⟨S524288x128, .i1⟩
  | .hbm, ⟨38, _⟩ => ⟨S_, .f32⟩
  | .hbm, ⟨39, _⟩ => ⟨S524288x128, .f32⟩
  | .hbm, ⟨40, _⟩ => ⟨S524288x128, .i1⟩
  | .hbm, ⟨41, _⟩ => ⟨S_, .f32⟩
  | .hbm, ⟨42, _⟩ => ⟨S_, .f32⟩
  | .hbm, ⟨43, _⟩ => ⟨S524288x128, .f32⟩
  | .hbm, ⟨44, _⟩ => ⟨S524288x128, .f32⟩
  | .hbm, ⟨45, _⟩ => ⟨S524288x128, .f32⟩
  | .hbm, ⟨46, _⟩ => ⟨S_, .f32⟩
  | .hbm, ⟨47, _⟩ => ⟨S524288x128, .f32⟩
  | .hbm, ⟨48, _⟩ => ⟨S524288x128, .f32⟩
  | .hbm, ⟨49, _⟩ => ⟨S524288x128, .f32⟩
  | .hbm, ⟨50, _⟩ => ⟨S128x1, .f32⟩
  | .hbm, ⟨51, _⟩ => ⟨S524288x1, .f32⟩
  | .hbm, ⟨52, _⟩ => ⟨S1x1, .f32⟩
  | .hbm, ⟨53, _⟩ => ⟨S524288x1, .f32⟩
  | .hbm, ⟨54, _⟩ => ⟨S524288x1, .f32⟩
  | .hbm, ⟨55, _⟩ => ⟨S524288, .f32⟩
  | .hbm, ⟨56, _⟩ => ⟨S524288, .f32⟩
  | .hbm, ⟨57, _⟩ => ⟨S524288, .f32⟩
  | .hbm, ⟨58, _⟩ => ⟨S_, .f32⟩
  | .hbm, ⟨59, _⟩ => ⟨S524288, .f32⟩
  | .hbm, ⟨60, _⟩ => ⟨S524288, .f32⟩
  | .hbm, ⟨61, _⟩ => ⟨S_, .f32⟩
  | .hbm, ⟨62, _⟩ => ⟨S524288, .f32⟩
  | .hbm, ⟨63, _⟩ => ⟨S524288, .f32⟩
  | .hbm, ⟨64, _⟩ => ⟨S_, .f32⟩
  | .hbm, ⟨65, _⟩ => ⟨S16384x16384, .f32⟩
  | .hbm, ⟨66, _⟩ => ⟨S_, .i32⟩
  | .hbm, ⟨67, _⟩ => ⟨S524288, .i32⟩
  | .hbm, ⟨68, _⟩ => ⟨S524288, .i1⟩
  | .hbm, ⟨69, _⟩ => ⟨S_, .i32⟩
  | .hbm, ⟨70, _⟩ => ⟨S524288, .i32⟩
  | .hbm, ⟨71, _⟩ => ⟨S524288, .i32⟩
  | .hbm, ⟨72, _⟩ => ⟨S524288, .i32⟩
  | .hbm, ⟨73, _⟩ => ⟨S_, .i32⟩
  | .hbm, ⟨74, _⟩ => ⟨S524288, .i32⟩
  | .hbm, ⟨75, _⟩ => ⟨S524288, .i1⟩
  | .hbm, ⟨76, _⟩ => ⟨S_, .i32⟩
  | .hbm, ⟨77, _⟩ => ⟨S524288, .i32⟩
  | .hbm, ⟨78, _⟩ => ⟨S524288, .i32⟩
  | .hbm, ⟨79, _⟩ => ⟨S524288, .i32⟩
  | .hbm, ⟨80, _⟩ => ⟨S524288x1, .i32⟩
  | .hbm, ⟨81, _⟩ => ⟨S524288x1, .i32⟩
  | .hbm, ⟨82, _⟩ => ⟨S524288x2, .i32⟩
  | .hbm, ⟨83, _⟩ => ⟨S16384x16384, .f32⟩
  | .hbm, ⟨84, _⟩ => ⟨S16384, .i32⟩
  | .hbm, ⟨85, _⟩ => ⟨S_, .i32⟩
  | .hbm, ⟨86, _⟩ => ⟨S16384, .i32⟩
  | .hbm, ⟨87, _⟩ => ⟨S16384, .i1⟩
  | .hbm, ⟨88, _⟩ => ⟨S_, .i32⟩
  | .hbm, ⟨89, _⟩ => ⟨S16384, .i32⟩
  | .hbm, ⟨90, _⟩ => ⟨S16384, .i32⟩
  | .hbm, ⟨91, _⟩ => ⟨S16384, .i32⟩
  | .hbm, ⟨92, _⟩ => ⟨S_, .i32⟩
  | .hbm, ⟨93, _⟩ => ⟨S16384, .i32⟩
  | .hbm, ⟨94, _⟩ => ⟨S16384, .i1⟩
  | .hbm, ⟨95, _⟩ => ⟨S_, .i32⟩
  | .hbm, ⟨96, _⟩ => ⟨S16384, .i32⟩
  | .hbm, ⟨97, _⟩ => ⟨S16384, .i32⟩
  | .hbm, ⟨98, _⟩ => ⟨S16384, .i32⟩
  | .hbm, ⟨99, _⟩ => ⟨S16384x1, .i32⟩
  | .hbm, ⟨100, _⟩ => ⟨S16384x1, .i32⟩
  | .hbm, ⟨101, _⟩ => ⟨S16384x2, .i32⟩
  | .hbm, ⟨102, _⟩ => ⟨S_, .f32⟩
  | .hbm, ⟨103, _⟩ => ⟨S16384, .f32⟩
  | .hbm, ⟨104, _⟩ => ⟨S16384x16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_cst_1 : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_v4 : Ref sig .tc := ⟨.hbm, 44, rfl⟩
abbrev main_call0_v5 : Ref sig .tc := ⟨.hbm, 45, rfl⟩
abbrev main_call0_cst_2 : Ref sig .tc := ⟨.hbm, 46, rfl⟩
abbrev main_call0_v6 : Ref sig .tc := ⟨.hbm, 47, rfl⟩
abbrev main_call0_v7 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst : Ref sig .tc := ⟨.hbm, 58, rfl⟩
abbrev main_v33 : Ref sig .tc := ⟨.hbm, 59, rfl⟩
abbrev main_v34 : Ref sig .tc := ⟨.hbm, 60, rfl⟩
abbrev main_cst_3 : Ref sig .tc := ⟨.hbm, 61, rfl⟩
abbrev main_v35 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_c_5 : Ref sig .tc := ⟨.hbm, 66, rfl⟩
abbrev main_v38 : Ref sig .tc := ⟨.hbm, 67, rfl⟩
abbrev main_v39 : Ref sig .tc := ⟨.hbm, 68, rfl⟩
abbrev main_c_6 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_7 : Ref sig .tc := ⟨.hbm, 73, rfl⟩
abbrev main_v43 : Ref sig .tc := ⟨.hbm, 74, rfl⟩
abbrev main_v44 : Ref sig .tc := ⟨.hbm, 75, rfl⟩
abbrev main_c_8 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_9 : Ref sig .tc := ⟨.hbm, 85, rfl⟩
abbrev main_v53 : Ref sig .tc := ⟨.hbm, 86, rfl⟩
abbrev main_v54 : Ref sig .tc := ⟨.hbm, 87, rfl⟩
abbrev main_c_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_11 : Ref sig .tc := ⟨.hbm, 92, rfl⟩
abbrev main_v58 : Ref sig .tc := ⟨.hbm, 93, rfl⟩
abbrev main_v59 : Ref sig .tc := ⟨.hbm, 94, rfl⟩
abbrev main_c_12 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_13 : Ref sig .tc := ⟨.hbm, 102, rfl⟩
abbrev main_v66 : Ref sig .tc := ⟨.hbm, 103, rfl⟩
abbrev main_v67 : Ref sig .tc := ⟨.hbm, 104, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  concatenates_S524288x128_S524288x128_S524288x256_d1 : Shape.Concatenates [S524288x128, S524288x128] S524288x256 1
  transposes_S128x256_S256x128_1_0 : S128x256.Transposes [1, 0] S256x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  transposes_S1x128_S128x1_1_0 : S1x128.Transposes [1, 0] S128x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S524288x1_S524288 : S524288x1.ShapeCasts S524288
  bcast_S_S16384x16384 : S_.BroadcastsInDim S16384x16384 (![] : Fin 0 → Fin S16384x16384.rank)
  concatenates_S524288x1_S524288x1_S524288x2_d1 : Shape.Concatenates [S524288x1, S524288x1] S524288x2 1
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  gather_S16384x128_S524288x1_S524288x128_1_0_n_n_0_1_1128_wf : GatherDims.WF S16384x128 S524288x1 S524288x128 [1] [0] [] [0] [] 1 ![1, 128]
  dot_S524288x256_S256x128_S524288x128_1_0_0_1_n_n_wf : DotDims.WF S524288x256 S256x128 S524288x128 [1] [0] [0] [1] [] []
  dot_S524288x128_S128x1_S524288x1_1_0_0_1_n_n_wf : DotDims.WF S524288x128 S128x1 S524288x1 [1] [0] [0] [1] [] []
  scatter_S16384x16384_S524288x2_S524288_n_01_01_1_wf : ScatterDims.WF S16384x16384 S524288x2 S524288 [] [0, 1] [0, 1] 1
  scatter_S16384x16384_S16384x2_S16384_n_01_01_1_wf : ScatterDims.WF S16384x16384 S16384x2 S16384 [] [0, 1] [0, 1] 1

variable [Facts₀]

def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def dot_S524288x256_S256x128_S524288x128_1_0_0_1_n_n : DotDims S524288x256 S256x128 S524288x128 where
  lhsContracting := [1]
  rhsContracting := [0]
  lhsNonContracting := [0]
  rhsNonContracting := [1]
  lhsBatch := []
  rhsBatch := []
  wf := dot_S524288x256_S256x128_S524288x128_1_0_0_1_n_n_wf
def dot_S524288x128_S128x1_S524288x1_1_0_0_1_n_n : DotDims S524288x128 S128x1 S524288x1 where
  lhsContracting := [1]
  rhsContracting := [0]
  lhsNonContracting := [0]
  rhsNonContracting := [1]
  lhsBatch := []
  rhsBatch := []
  wf := dot_S524288x128_S128x1_S524288x1_1_0_0_1_n_n_wf
def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def scatter_S16384x16384_S16384x2_S16384_n_01_01_1 : ScatterDims S16384x16384 S16384x2 S16384 where
  updateWindowDims := []
  insertedWindowDims := [0, 1]
  scatterDimsToOperandDims := [0, 1]
  indexVectorDim := 1
  wf := scatter_S16384x16384_S16384x2_S16384_n_01_01_1_wf

class Facts : Prop extends Facts₀ where

variable [Facts]
-- ==== Proof.EdgeProb.lean ====
/-
  The probability of one edge, as a function of that edge's row of the pair matrix.

  An edge e joins nodes r and c; its row of the pair matrix is the 256 numbers (embedding of r, embedding of c). A
  dense layer takes the row to 128 hidden values, hidden j = (sum over k of row k * Wt k j) + bias j; each goes through
  the exponential linear unit (h where h > 0, e^h - 1 elsewhere); a second dense layer with one output takes the 128
  activations to a logit, (sum over j of act j * w2 j) + b2; the probability is the logistic function of the logit,
  1 / (1 + e^(-logit)). Everything is read on the extended reals, where each operation is the exact one.

  The same function has a second spelling, the one a numerical library expands to: the unit's negative branch
  written 1 * (expm1 of (0 where h > 0, h elsewhere)), and the logistic function's exponent written as the negation
  of the logit rather than 0 minus it. On the extended reals the two spellings agree at every argument, infinite
  ones included: 1 * y = y, 0 - x = -x, and on the negative branch the inner selection returns h itself.
-/
import Idealize.ShloMosaic.PureOps.Ideal
import Idealize.ShloMosaic.PureOps.Ideal.Laws
import Idealize.ShloMosaic.Lib.IdealHost
import Idealize.ShloMosaic.Lib.ValueIdx

noncomputable section

namespace Cert.EdgeProb

open Idealize.ShloMosaic Idealize.ShloMosaic.ValueIdx
open scoped BigOperators

/-- The binary32 word of 0.0, read on the extended reals. -/
def zero32 : EReal := Ideal.ofBits .f32 0x00000000#32
/-- The binary32 word of 1.0, read on the extended reals. -/
def one32 : EReal := Ideal.ofBits .f32 0x3F800000#32

theorem zero32_eq : zero32 = 0 := Ideal.ofBits_zero_f32
theorem one32_eq : one32 = 1 := Ideal.ofBits_one_f32

/-- Hidden value j of the first layer: the row against column j of the transposed weights, plus the bias. -/
def hiddenVal (x : Fin 256 → EReal) (wt : Fin 256 → Fin 128 → EReal) (b1 : Fin 128 → EReal) (j : Fin 128) : EReal :=
  (∑ k : Fin 256, x k * wt k j) + b1 j

/-- The exponential linear unit: h where h > 0, e^h - 1 elsewhere. -/
def elu (h : EReal) : EReal := Scalar.select (Ideal.cmp .ogt h zero32) h (Ideal.exp h - one32)

/-- The second layer's one output: the activations against the weight row, plus the bias. -/
def logit (act : Fin 128 → EReal) (w2 : Fin 128 → EReal) (b2 : EReal) : EReal := (∑ j : Fin 128, act j * w2 j) + b2

/-- The logistic function, 1 / (1 + e^(0 - l)). -/
def logistic (l : EReal) : EReal := Ideal.div one32 (one32 + Ideal.exp (zero32 - l))

/-- The probability of an edge from its row of the pair matrix. -/
def rowProb (x : Fin 256 → EReal) (wt : Fin 256 → Fin 128 → EReal) (b1 : Fin 128 → EReal) (w2 : Fin 128 → EReal)
    (b2 : EReal) : EReal :=
  logistic (logit (fun j => elu (hiddenVal x wt b1 j)) w2 b2)

/-! ## The library spelling -/

/-- The exponential linear unit as a numerical library expands it: h where h > 0, and elsewhere
    1 * (e^w - 1) with w = 0 where h > 0 and h elsewhere. -/
def eluExpanded (h : EReal) : EReal :=
  Scalar.select (Ideal.cmp .ogt h zero32) h
    (one32 * (Ideal.exp (Scalar.select (Ideal.cmp .ogt h zero32) zero32 h) - 1))

/-- The logistic function with the exponent spelt as a negation. -/
def logisticNeg (l : EReal) : EReal := Ideal.div one32 (one32 + Ideal.exp (-l))

/-- The two spellings of the unit agree: where h > 0 both return h; elsewhere the inner selection returns h, and
    1 * (e^h - 1) = e^h - 1. -/
theorem eluExpanded_eq (h : EReal) : eluExpanded h = elu h := by
  unfold eluExpanded elu Scalar.select
  by_cases hc : Ideal.cmp .ogt h zero32 = 1
  · rw [if_pos hc, if_pos hc]
  · rw [if_neg hc, if_neg hc, if_neg hc, one32_eq, one_mul]

/-- The two spellings of the logistic function agree: 0 - l = -l on the extended reals. -/
theorem logisticNeg_eq (l : EReal) : logisticNeg l = logistic l := by
  unfold logisticNeg logistic
  rw [zero32_eq, zero_sub]

/-! ## Over whole arrays -/

/-- The probabilities of all edges from the pair matrix X [524288, 256], with the parameters given entry by entry:
    edge e's probability is that of row e of X. -/
def probRows (X : (⟨2, ![524288, 256]⟩ : Shape).Idx → EReal) (wt : Fin 256 → Fin 128 → EReal) (b1 : Fin 128 → EReal)
    (w2 : Fin 128 → EReal) (b2 : EReal) : (⟨1, ![524288]⟩ : Shape).Idx → EReal :=
  fun e => rowProb (fun k => X (ix2 (e 0 : Fin 524288) k)) wt b1 w2 b2

theorem probRows_apply (X : (⟨2, ![524288, 256]⟩ : Shape).Idx → EReal) (wt : Fin 256 → Fin 128 → EReal)
    (b1 : Fin 128 → EReal) (w2 : Fin 128 → EReal) (b2 : EReal) (r : Fin 524288) :
    probRows X wt b1 w2 b2 (ix1 r) = rowProb (fun k => X (ix2 r k)) wt b1 w2 b2 := rfl

/-- The probabilities of all edges from the pair matrix X [524288, 256], the transposed first-layer weights Wt
    [256, 128], the first bias b1 [128], the second layer's weight row W2 [1, 128] and its bias b2 [1]. -/
def probOf (X : (⟨2, ![524288, 256]⟩ : Shape).Idx → EReal) (Wt : (⟨2, ![256, 128]⟩ : Shape).Idx → EReal)
    (b1 : (⟨1, ![128]⟩ : Shape).Idx → EReal) (W2 : (⟨2, ![1, 128]⟩ : Shape).Idx → EReal)
    (b2 : (⟨1, ![1]⟩ : Shape).Idx → EReal) : (⟨1, ![524288]⟩ : Shape).Idx → EReal :=
  probRows X (fun k j => Wt (ix2 k j)) (fun j => b1 (ix1 j)) (fun j => W2 (ix2 (0 : Fin 1) j)) (b2 (ix1 (0 : Fin 1)))

theorem probOf_apply (X : (⟨2, ![524288, 256]⟩ : Shape).Idx → EReal) (Wt : (⟨2, ![256, 128]⟩ : Shape).Idx → EReal)
    (b1 : (⟨1, ![128]⟩ : Shape).Idx → EReal) (W2 : (⟨2, ![1, 128]⟩ : Shape).Idx → EReal)
    (b2 : (⟨1, ![1]⟩ : Shape).Idx → EReal) (r : Fin 524288) :
    probOf X Wt b1 W2 b2 (ix1 r) = rowProb (fun k => X (ix2 r k)) (fun k j => Wt (ix2 k j)) (fun j => b1 (ix1 j))
      (fun j => W2 (ix2 (0 : Fin 1) j)) (b2 (ix1 (0 : Fin 1))) := rfl

end Cert.EdgeProb

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.LibAxisReductions.lean ====
/-
  Reductions along one axis and a column spread across lanes, read at an index given by coordinates, on the extended reals.

  A sum or a maximum along one axis of a matrix, at a kept coordinate, is the sum or the running maximum of the matrix's
  entries along that axis; a column [a, 1] spread to [a, b] reads, at (i, j), the column's entry i; and the host's
  reduction by a maximum along the last axis of a rank-3 array, at (p, q), is the running maximum, from the initial
  value, of the entries (p, q, k).
-/
import Idealize.ShloMosaic.Lib.ValueIdx
import Idealize.ShloMosaic.Lib.Pipeline.Value
import Idealize.ShloMosaic.PureOps.Ideal.Laws

namespace Cert.Lib.AxisReductions

open Idealize.ShloMosaic Idealize.ShloMosaic.ValueIdx

/-! ## The reduced index with the dropped coordinate put back -/

/-- Over column t of a matrix, putting row k back gives the index (k, t). -/
theorem lift_rows {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Over row i of a matrix, putting column k back gives the index (i, k). -/
theorem lift_cols {m n : ℕ} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

/-- Over the pair (p, q) of a rank-3 array reduced along its last axis, putting k back gives (p, q, k). -/
theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums and maxima along one axis of a matrix -/

/-- The sum down the rows of a matrix, at column t: the sum over the rows k of the entry (k, t). -/
theorem sum_rows_apply {m n : ℕ} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.add.neutral .f32 hφ) (t : Fin n) :
    multiReduction .add [0] ⟨1, ![n]⟩ src acc h hφ hacc (ix1 t) = ∑ k : Fin m, src (ix2 k t) := by
  refine (Ideal.multiReduction_add_single src acc h hφ hacc (ix1 t)).trans ?_
  exact Finset.sum_congr rfl fun k _ => congrArg src (lift_rows h t k)

/-- The sum along the columns of a matrix, at row i: the sum over the columns k of the entry (i, k). -/
theorem sum_cols_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (i : Fin m) :
    multiReduction .add [1] ⟨1, ![m]⟩ src acc h hφ hacc (ix1 i) = ∑ k : Fin n, src (ix2 i k) := by
  refine (Ideal.multiReduction_add_single src acc h hφ hacc (ix1 i)).trans ?_
  exact Finset.sum_congr rfl fun k _ => congrArg src (lift_cols h i k)

/-- The maximum down the rows of a matrix, at column t: the running maximum, from the accumulator's value, of the
    entries (k, t). -/
theorem max_rows_apply {m n : ℕ} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.maximumf.neutral .f32 hφ) (t : Fin n) :
    multiReduction .maximumf [0] ⟨1, ![n]⟩ src acc h hφ hacc (ix1 t)
      = (Finset.univ : Finset (Fin m)).fold max (Ideal.ofBits .f32 acc) (fun k => src (ix2 k t)) := by
  refine (Ideal.multiReduction_maximumf_single src acc h hφ hacc (ix1 t)).trans ?_
  exact congrArg (fun f => Finset.fold max (Ideal.ofBits .f32 acc) f (Finset.univ : Finset (Fin m)))
    (funext fun k => congrArg src (lift_rows h t k))

/-! ## A column spread across lanes -/

/-- A column [a, 1] broadcast to [a, b] reads, at (i, j), the column's entry i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The host's maximum along the last axis of a rank-3 array -/

/-- The host's reduction by a maximum along the last axis of an [a, b, c] array, at (p, q): the running maximum, from the
    initial value, of the entries (p, q, k). -/
theorem hostMax_last3_apply {a b c : ℕ} {u : Shape} (x : FVec Ideal ⟨3, ![a, b, c]⟩ .f32) (init : u.Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = (Finset.univ : Finset (Fin c)).fold max (init (Shape.Idx.first hu)) (fun k => x (ix3 p q k)) := by
  refine (Host.reduce_eq_fold_single FloatOps.maximumf x init h' h hu (ix2 p q)).trans ?_
  exact congrArg (fun f => Finset.fold max (init (Shape.Idx.first hu)) f (Finset.univ : Finset (Fin c)))
    (funext fun k => congrArg x (lift_last3 h p q k))

/-- Minus infinity, as the binary32 word of it, is neutral for the maximum of extended reals. -/
theorem max_negInf (y : EReal) : max (Ideal.ofBits .f32 0xFF800000#32) y = y := by
  simp [Ideal.ofBits, Ideal.ieee]

end Cert.Lib.AxisReductions
-- ==== Proof.KernelRow.lean ====
/-
  What the kernel's body computes from one block of 4096 rows of the pair matrix, read at a row.

  The body's one store writes, for each of the block's 4096 rows, the probability of that row's edge. Its arithmetic is
  four stages: the first dense layer over the block (the matrix unit accumulating into zero, then the bias row spread
  down the block); the exponential linear unit, entry by entry; the second layer (the activations against the weight
  row, summed along each row, plus the one-entry bias); and the logistic function, entry by entry. Read on the extended
  reals at row r of the block, the stages are the scalar functions of the specification applied to row r: the matrix
  unit's entry (r, j) is the sum over k of x(r, k) * wt(k, j), a change of float format is the identity, and the sum
  along a row is the plain finite sum.
-/
import proofs.«151380_j77352361001298_1_alg».proof.Proof.Gen.KernelIdeal.Skeleton
import proofs.«151380_j77352361001298_1_alg».proof.Proof.EdgeProb
import proofs.«151380_j77352361001298_1_alg».proof.Proof.LibPlainProduct
import proofs.«151380_j77352361001298_1_alg».proof.Proof.LibAxisReductions
import Idealize.ShloMosaic.Lib.ValueIdx
import Idealize.ShloMosaic.Lib.ValueLayout
import Idealize.ShloMosaic.Lib.Pipeline.Value

noncomputable section

namespace Cert.KernelRow

open Idealize.ShloMosaic Idealize.ShloMosaic.ValueIdx Cert.KernelIdeal Cert.EdgeProb
open scoped BigOperators

/-- The first layer over a block: the block against the transposed weights through the matrix unit, plus the bias row
    spread down the block's rows. -/
def hiddenBlock (x0 : FVec Ideal S4096x256 .f32) (x3 : FVec Ideal S256x128 .f32) (x7 : FVec Ideal S1x128 .f32) :
    FVec Ideal S4096x128 .f32 :=
  addf (matmul dot_S4096x256_S256x128_S4096x128_1_0_0_1_n_n none
      (truncf .bf16 (shapeCast S4096x256 x0 Gen.shapeCasts_S4096x256_S4096x256) Gen.bitsLt_bf16_f32)
      (truncf .bf16 (shapeCast S256x128 x3 Gen.shapeCasts_S256x128_S256x128) Gen.bitsLt_bf16_f32)
      (constant S4096x128 .f32 0x00000000#32))
    (broadcastTo S4096x128 (shapeCast S1x128 x7 Gen.shapeCasts_S1x128_S1x128) Gen.broadcasts_S1x128_S4096x128)

/-- The exponential linear unit over a block, entry by entry. -/
def actBlock (h : FVec Ideal S4096x128 .f32) : FVec Ideal S4096x128 .f32 :=
  select (cmpf .ogt h (broadcast S4096x128 (Scalar.ofBits .f32 0x00000000#32))) h
    (subf (exp h) (broadcast S4096x128 (Scalar.ofBits .f32 0x3F800000#32)))

/-- The second layer over a block: the activations times the weight row spread down the rows, summed along each row,
    plus the one-entry bias. -/
def logitBlock (act : FVec Ideal S4096x128 .f32) (x17 : FVec Ideal S1x128 .f32) (x18 : FVec Ideal S1x1 .f32) :
    FVec Ideal S4096 .f32 :=
  addf (multiReduction .add [1] S4096 (mulf act (broadcastTo S4096x128 x17 Gen.broadcasts_S1x128_S4096x128))
      0x00000000#32 Gen.reduces_S4096x128_S4096 (.inl rfl) rfl)
    (broadcast S4096 (extractAt ![0, 0] (shapeCast S1x1 x18 Gen.shapeCasts_S1x1_S1x1) Gen.inpos_S1x1_p0_0))

/-- The logistic function over a block's logits, entry by entry. -/
def probBlock (l : FVec Ideal S4096 .f32) : FVec Ideal S4096 .f32 :=
  divf (broadcast S4096 (Scalar.ofBits .f32 0x3F800000#32))
    (addf (broadcast S4096 (Scalar.ofBits .f32 0x3F800000#32))
      (exp (subf (broadcast S4096 (Scalar.ofBits .f32 0x00000000#32)) l)))

/-- The stored value is the four stages composed. -/
theorem pay_eq (x0 : Vec Ideal S4096x256 .f32) (x3 : Vec Ideal S256x128 .f32) (x7 x17 : Vec Ideal S1x128 .f32)
    (x18 : Vec Ideal S1x1 .f32) :
    Gen.k0_pay1 (F := Ideal) x0 x3 x7 x17 x18 = probBlock (logitBlock (actBlock (hiddenBlock x0 x3 x7)) x17 x18) := rfl

/-- Entry (r, j) of the first layer over a block is hidden value j of row r. -/
theorem hiddenBlock_apply (x0 : FVec Ideal S4096x256 .f32) (x3 : FVec Ideal S256x128 .f32) (x7 : FVec Ideal S1x128 .f32)
    (r : Fin 4096) (j : Fin 128) :
    hiddenBlock x0 x3 x7 (ix2 r j)
      = hiddenVal (fun k => x0 (ix2 r k)) (fun k j => x3 (ix2 k j)) (fun j => x7 (ix2 (0 : Fin 1) j)) j := by
  unfold hiddenBlock hiddenVal
  rw [addf_apply]
  congr 1
  · refine (Cert.Lib.PlainProduct.matmul_zero_apply (d := dot_S4096x256_S256x128_S4096x128_1_0_0_1_n_n)
      ⟨rfl, rfl, rfl, rfl, rfl, rfl⟩ rfl rfl none _ _ r j).trans ?_
    exact Finset.sum_congr rfl fun k _ => by rw [truncf_apply, truncf_apply, shapeCast_self, shapeCast_self]
  · rw [broadcastTo_1b_ab_apply, shapeCast_self]

/-- The unit over a block, at an entry, is the unit of that entry. -/
theorem actBlock_apply (h : FVec Ideal S4096x128 .f32) (i : S4096x128.Idx) : actBlock h i = elu (h i) := rfl

/-- Entry r of the second layer over a block is the logit of row r's activations. -/
theorem logitBlock_apply (act : FVec Ideal S4096x128 .f32) (x17 : FVec Ideal S1x128 .f32) (x18 : FVec Ideal S1x1 .f32)
    (r : Fin 4096) :
    logitBlock act x17 x18 (ix1 r)
      = logit (fun j => act (ix2 r j)) (fun j => x17 (ix2 (0 : Fin 1) j)) (x18 (ix2 (0 : Fin 1) (0 : Fin 1))) := by
  unfold logitBlock logit
  rw [addf_apply, broadcast_apply]
  congr 1
  · refine (Cert.Lib.AxisReductions.sum_cols_apply _ 0x00000000#32 Gen.reduces_S4096x128_S4096 (.inl rfl) rfl r).trans ?_
    exact Finset.sum_congr rfl fun j _ => by rw [mulf_apply, broadcastTo_1b_ab_apply]
  · rw [shapeCast_self]
    unfold extractAt
    exact congrArg x18 (funext fun a => Fin.ext (by match a with | ⟨0, _⟩ => rfl | ⟨1, _⟩ => rfl))

/-- The logistic function over a block, at an entry, is the logistic function of that entry. -/
theorem probBlock_apply (l : FVec Ideal S4096 .f32) (i : S4096.Idx) : probBlock l i = logistic (l i) := rfl

/-- THE STORED VALUE AT A ROW: the probability of that row's edge, from row r of the block of the pair matrix, the
    transposed weights, the bias row, the second layer's weight row and its one-entry bias. -/
theorem pay_row (x0 : Vec Ideal S4096x256 .f32) (x3 : Vec Ideal S256x128 .f32) (x7 x17 : Vec Ideal S1x128 .f32)
    (x18 : Vec Ideal S1x1 .f32) (r : Fin 4096) :
    Gen.k0_pay1 (F := Ideal) x0 x3 x7 x17 x18 (ix1 r)
      = rowProb (fun k => x0 (ix2 r k)) (fun k j => x3 (ix2 k j)) (fun j => x7 (ix2 (0 : Fin 1) j))
          (fun j => x17 (ix2 (0 : Fin 1) j)) (x18 (ix2 (0 : Fin 1) (0 : Fin 1))) := by
  rw [pay_eq, probBlock_apply, logitBlock_apply]
  unfold rowProb
  refine congrArg logistic (congrArg (fun a => logit a _ _) (funext fun j => ?_))
  rw [actBlock_apply, hiddenBlock_apply]

/-- The same at any index of the block, its one coordinate naming the row. -/
theorem pay_idx (x0 : Vec Ideal S4096x256 .f32) (x3 : Vec Ideal S256x128 .f32) (x7 x17 : Vec Ideal S1x128 .f32)
    (x18 : Vec Ideal S1x1 .f32) (y : S4096.Idx) :
    Gen.k0_pay1 (F := Ideal) x0 x3 x7 x17 x18 y
      = rowProb (fun k => x0 (ix2 (y 0 : Fin 4096) k)) (fun k j => x3 (ix2 k j)) (fun j => x7 (ix2 (0 : Fin 1) j))
          (fun j => x17 (ix2 (0 : Fin 1) j)) (x18 (ix2 (0 : Fin 1) (0 : Fin 1))) := by
  obtain ⟨r, rfl⟩ : ∃ r : Fin 4096, y = ix1 r := ⟨y 0, eq_ix1 y⟩
  exact pay_row x0 x3 x7 x17 x18 r

end Cert.KernelRow

end
-- ==== Proof.KernelProb.lean ====
/-
  From the blocks the kernel writes back to the whole vector of edge probabilities.

  The grid has 128 points; point t reads rows 4096 t … 4096 t + 4095 of the pair matrix and the whole of the four small
  parameter arrays, and writes back entries 4096 t … 4096 t + 4095 of the output vector. Entry r of what point t writes is
  the probability computed from row r of its block of the pair matrix, which is row 4096 t + r of the whole matrix; the
  128 blocks tile the 524288 entries (entry i lies in block i / 4096), so after the run the output vector holds, at
  every edge, the probability of that edge's row.
-/
import proofs.«151380_j77352361001298_1_alg».proof.Proof.Gen.KernelIdeal.Frame
import proofs.«151380_j77352361001298_1_alg».proof.Proof.KernelRow
import Idealize.ShloMosaic.Lib.Pipeline.Value

set_option maxRecDepth 16384

noncomputable section

namespace Cert.KernelProb

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.EdgeProb

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The block indices, decided over the grid: the pair matrix's block and the output's block move with the point, the
    four parameter arrays are one block each. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = t.val :=
  (by decide +kernel : ∀ t : Fin grid0.N, _)

theorem point_lt (t : Fin cfg0.N) : t.val < 128 := Nat.lt_of_lt_of_eq t.isLt N_0

/-- Row r of point t's block of the pair matrix is row 4096 t + r of the matrix (R names that row). -/
theorem read_pair (c : Dev nD) (t : Fin cfg0.N) (r : Fin 4096) (k : Fin 256) (R : Fin 524288)
    (hR : R.val = t.val * 4096 + r.val) :
    iblk m c 0 t (ix2 r k) = V m c main_v18 (ix2 R k) := by
  show V m c main_v18 (((cfg0.win 0).blk t).view.emb (ix2 r k)) = _
  refine congrArg _ (funext fun a => Fin.ext ?_)
  obtain ⟨e0, e1, -⟩ := idx_facts t
  match a with
  | ⟨0, _⟩ => show win0_0.index t (0 : Fin 2) * 4096 + 1 * r.val = R.val; rw [e0, hR]; omega
  | ⟨1, _⟩ => show win0_0.index t (1 : Fin 2) * 256 + 1 * k.val = k.val; rw [e1]; omega

/-- The block of the transposed weights is the whole array. -/
theorem read_weights (c : Dev nD) (t : Fin cfg0.N) (k : Fin 256) (j : Fin 128) :
    iblk m c 1 t (ix2 k j) = V m c main_v19 (ix2 k j) := by
  show V m c main_v19 (((cfg0.win 1).blk t).view.emb (ix2 k j)) = _
  refine congrArg _ (funext fun a => Fin.ext ?_)
  obtain ⟨-, -, e0, e1, -⟩ := idx_facts t
  match a with
  | ⟨0, _⟩ => show win0_1.index t (0 : Fin 2) * 256 + 1 * k.val = k.val; rw [e0]; omega
  | ⟨1, _⟩ => show win0_1.index t (1 : Fin 2) * 128 + 1 * j.val = j.val; rw [e1]; omega

/-- The block of the first bias row is the whole row. -/
theorem read_bias1 (c : Dev nD) (t : Fin cfg0.N) (j : Fin 128) :
    iblk m c 2 t (ix2 (0 : Fin 1) j) = V m c main_v20 (ix2 (0 : Fin 1) j) := by
  show V m c main_v20 (((cfg0.win 2).blk t).view.emb (ix2 (0 : Fin 1) j)) = _
  refine congrArg _ (funext fun a => Fin.ext ?_)
  obtain ⟨-, -, -, -, e0, e1, -⟩ := idx_facts t
  match a with
  | ⟨0, _⟩ => show win0_2.index t (0 : Fin 2) * 1 + 1 * 0 = 0; rw [e0]
  | ⟨1, _⟩ => show win0_2.index t (1 : Fin 2) * 128 + 1 * j.val = j.val; rw [e1]; omega

/-- The block of the second layer's weight row is the whole row. -/
theorem read_w2 (c : Dev nD) (t : Fin cfg0.N) (j : Fin 128) :
    iblk m c 3 t (ix2 (0 : Fin 1) j) = V m c main_arg5 (ix2 (0 : Fin 1) j) := by
  show V m c main_arg5 (((cfg0.win 3).blk t).view.emb (ix2 (0 : Fin 1) j)) = _
  refine congrArg _ (funext fun a => Fin.ext ?_)
  obtain ⟨-, -, -, -, -, -, e0, e1, -⟩ := idx_facts t
  match a with
  | ⟨0, _⟩ => show win0_3.index t (0 : Fin 2) * 1 + 1 * 0 = 0; rw [e0]
  | ⟨1, _⟩ => show win0_3.index t (1 : Fin 2) * 128 + 1 * j.val = j.val; rw [e1]; omega

/-- The block of the second bias is its one entry. -/
theorem read_bias2 (c : Dev nD) (t : Fin cfg0.N) :
    iblk m c 4 t (ix2 (0 : Fin 1) (0 : Fin 1)) = V m c main_v21 (ix2 (0 : Fin 1) (0 : Fin 1)) := by
  show V m c main_v21 (((cfg0.win 4).blk t).view.emb (ix2 (0 : Fin 1) (0 : Fin 1))) = _
  refine congrArg _ (funext fun a => Fin.ext ?_)
  obtain ⟨-, -, -, -, -, -, -, -, e0, e1, -⟩ := idx_facts t
  match a with
  | ⟨0, _⟩ => show win0_4.index t (0 : Fin 2) * 1 + 1 * 0 = 0; rw [e0]
  | ⟨1, _⟩ => show win0_4.index t (1 : Fin 2) * 1 + 1 * 0 = 0; rw [e1]

/-- The vector of edge probabilities over the arrays as the region finds them. -/
abbrev probV (c : Dev nD) : S524288.Idx → EReal :=
  probRows (V m c main_v18) (fun k j => V m c main_v19 (ix2 k j)) (fun j => V m c main_v20 (ix2 (0 : Fin 1) j))
    (fun j => V m c main_arg5 (ix2 (0 : Fin 1) j)) (V m c main_v21 (ix2 (0 : Fin 1) (0 : Fin 1)))

/-- Entry r of point t's output block sits at entry 4096 t + r of the output vector. -/
theorem out_row (t : Fin cfg0.N) (y : ((cfg0.win 5).xblock (cfg0.grid.coords t)).Idx) :
    ((((cfg0.win 5).blk t).view.emb y) (0 : Fin 1)).val = t.val * 4096 + (y (0 : Fin 1)).val := by
  obtain ⟨-, -, -, -, -, -, -, -, -, -, e0⟩ := idx_facts t
  show win0_5.index t (0 : Fin 1) * 4096 + 1 * (y (0 : Fin 1)).val = t.val * 4096 + (y (0 : Fin 1)).val
  rw [e0]; omega

set_option maxHeartbeats 4000000 in
/-- WHAT POINT t WRITES BACK is block t of the vector of edge probabilities. -/
theorem flushed_eq (c : Dev nD) (t : Fin cfg0.N) :
    (dats m 0 c).flushed 5 t = ((cfg0.win 5).blk t).view.read (Elt Ideal) (probV m c) := by
  show (cfg0.win 5).cut (grid0.coords t) ((dats m 0 c).after 5 t) = _
  rw [after0_5]
  unfold out0_5
  rw [View.canon_unit_zero zero1]
  simp only [View.ld_unit_zero (S := S4096x256) zero2, View.ld_unit_zero (S := S256x128) zero2,
    View.ld_unit_zero (S := S1x128) zero2, View.ld_unit_zero (S := S1x1) zero2]
  funext y
  rw [View.read_apply]
  show Gen.k0_pay1 (F := Ideal) (iblk m c 0 t) (iblk m c 1 t) (iblk m c 2 t) (iblk m c 3 t) (iblk m c 4 t)
      ((cfg0.win 5).xinj (grid0.coords t) y)
    = probV m c (((cfg0.win 5).blk t).view.emb y)
  refine (Cert.KernelRow.pay_idx (iblk m c 0 t) (iblk m c 1 t) (iblk m c 2 t) (iblk m c 3 t) (iblk m c 4 t)
    ((cfg0.win 5).xinj (grid0.coords t) y)).trans ?_
  have h0 : (fun k => iblk m c 0 t (ix2 (((cfg0.win 5).xinj (grid0.coords t) y) (0 : Fin 1) : Fin 4096) k))
      = fun k => V m c main_v18 (ix2 ((((cfg0.win 5).blk t).view.emb y) (0 : Fin 1) : Fin 524288) k) :=
    funext fun k => read_pair m c t _ k _ (out_row t y)
  have h1 : (fun k j => iblk m c 1 t (ix2 k j)) = fun k j => V m c main_v19 (ix2 k j) :=
    funext fun k => funext fun j => read_weights m c t k j
  have h2 : (fun j => iblk m c 2 t (ix2 (0 : Fin 1) j)) = fun j => V m c main_v20 (ix2 (0 : Fin 1) j) :=
    funext fun j => read_bias1 m c t j
  have h3 : (fun j => iblk m c 3 t (ix2 (0 : Fin 1) j)) = fun j => V m c main_arg5 (ix2 (0 : Fin 1) j) :=
    funext fun j => read_w2 m c t j
  rw [h0, h1, h2, h3, read_bias2 m c t]
  rfl

/-- An entry of the output vector is in point t's block iff it lies in the block's range. -/
theorem mem_blk (t : Fin cfg0.N) (i : S524288.Idx) :
    i ∈ ((cfg0.win 5).blk t).view.set
      ↔ ∀ a : Fin 1, win0_5.index t a * S4096.size a ≤ (i a).val ∧ (i a).val < win0_5.index t a * S4096.size a + S4096.size a := by
  show i ∈ ((View.whole main_v22).slice (win0_5.rect t)).set ↔ _
  rw [View.set_slice_whole, Rect.mem_set_unit]
  exact Iff.rfl

/-- Every entry of the output vector is in some point's block: entry i in block i / 4096. -/
theorem cover (i : S524288.Idx) :
    ∃ t : Fin cfg0.N, (cfg0.win 5).flush t = true ∧ i ∈ ((cfg0.win 5).blk t).view.set := by
  have hi : (i 0).val < 524288 := (i 0).isLt
  have hN : cfg0.N = 128 := N_0
  have ht : (i 0).val / 4096 < cfg0.N := by rw [hN]; omega
  refine ⟨⟨(i 0).val / 4096, ht⟩, flush0_5 _, ?_⟩
  rw [mem_blk]
  intro a
  obtain ⟨-, -, -, -, -, -, -, -, -, -, e0⟩ := idx_facts ⟨(i 0).val / 4096, ht⟩
  match a with
  | ⟨0, _⟩ =>
    show win0_5.index ⟨(i 0).val / 4096, ht⟩ (0 : Fin 1) * 4096 ≤ (i 0).val
      ∧ (i 0).val < win0_5.index ⟨(i 0).val / 4096, ht⟩ (0 : Fin 1) * 4096 + 4096
    rw [e0]
    show (i 0).val / 4096 * 4096 ≤ (i 0).val ∧ (i 0).val < (i 0).val / 4096 * 4096 + 4096
    omega

/-- THE OUTPUT VECTOR after the run: the probability of every edge. -/
theorem final (c : Dev nD) : (dats m 0 c).arrAt 5 cfg0.N = probV m c :=
  (dats m 0 c).arrAt_eq_of_cover 5 (probV m c) (fun t _ => flushed_eq m c t) cover

end Cert.KernelProb

end
-- ==== Proof.Adjacency.lean ====
/-
  The two stretches of array plumbing that surround the edge probabilities, as whole-array functions.

  Before: the edge list [2, 524288] is cut into its two rows, the source and the target node of every edge; a node
  number below zero counts from the end, so 16384 is added to it; each end's embedding row is gathered from the node
  table [16384, 128], and the two gathered matrices are laid side by side: the pair matrix [524288, 256]. The first
  layer's weights [128, 256] are transposed to [256, 128].

  After: the adjacency matrix [16384, 16384] starts as zeros; the probability of edge e is written at (source e,
  target e), in the order of the edges; then 1 is written at every diagonal entry (k, k). The result is a function of
  the two ends of every edge and of the vector of probabilities, and of nothing else.
-/
import proofs.«151380_j77352361001298_1_alg».proof.Proof.Gen.KernelIdeal
import Idealize.ShloMosaic.PureOps.Ideal

noncomputable section

namespace Cert.Adjacency

open Idealize.ShloMosaic Cert.KernelIdeal Cert.KernelIdeal.Gen

variable {F : FTy → Type} [FloatOps F]

/-- The source node of every edge: row 0 of the edge list, as a vector. -/
def srcIdx (a1 : IVec S2x524288 32) : IVec S524288 32 :=
  shapeCast S524288 (extractStridedSlice S1x524288 ![0, 0] a1 slices_S2x524288_S1x524288_0_0) shapeCasts_S1x524288_S524288

/-- The target node of every edge: row 1 of the edge list, as a vector. -/
def dstIdx (a1 : IVec S2x524288 32) : IVec S524288 32 :=
  shapeCast S524288 (extractStridedSlice S1x524288 ![1, 0] a1 slices_S2x524288_S1x524288_1_0) shapeCasts_S1x524288_S524288

/-- Node numbers of edges counted from the start: 16384 added where the number is below zero. -/
def wrapEdge (v : IVec S524288 32) : IVec S524288 32 :=
  select (cmpi .slt v (broadcastInDim S524288 ![] bcast_S_S524288 (constantI S_ 32 0#32)))
    (addi v (broadcastInDim S524288 ![] bcast_S_S524288 (constantI S_ 32 16384#32))) v

/-- The same for a vector of one number per node. -/
def wrapNode (v : IVec S16384 32) : IVec S16384 32 :=
  select (cmpi .slt v (broadcastInDim S16384 ![] bcast_S_S16384 (constantI S_ 32 0#32)))
    (addi v (broadcastInDim S16384 ![] bcast_S_S16384 (constantI S_ 32 16384#32))) v

/-- The embedding row of one end of every edge, gathered from the node table. -/
def nodeRows (a0 : S16384x128.Idx → F .f32) (v : IVec S524288 32) : S524288x128.Idx → F .f32 :=
  Host.gather gather_S16384x128_S524288x1_S524288x128_1_0_n_n_0_1_1128 a0
    (broadcastInDim S524288x1 ![0] bcast_S524288_S524288x1_0 (wrapEdge v))

/-- The pair matrix: the source's embedding row beside the target's, for every edge. -/
def pairOf (a0 : S16384x128.Idx → F .f32) (a1 : IVec S2x524288 32) : S524288x256.Idx → F .f32 :=
  concatenate S524288x256 1 [⟨S524288x128, nodeRows a0 (srcIdx a1)⟩, ⟨S524288x128, nodeRows a0 (dstIdx a1)⟩]
    concatenates_S524288x128_S524288x128_S524288x256_d1

/-- The first layer's weights, transposed. -/
def weightsT (a3 : S128x256.Idx → F .f32) : S256x128.Idx → F .f32 :=
  transpose S256x128 [1, 0] a3 transposes_S128x256_S256x128_1_0

/-- Where each edge's probability goes: (source, target), one pair per edge. -/
def edgeCells (src dst : IVec S524288 32) : IVec S524288x2 32 :=
  concatenate S524288x2 1
    [⟨S524288x1, broadcastInDim S524288x1 ![0] bcast_S524288_S524288x1_0 (wrapEdge src)⟩,
     ⟨S524288x1, broadcastInDim S524288x1 ![0] bcast_S524288_S524288x1_0 (wrapEdge dst)⟩]
    concatenates_S524288x1_S524288x1_S524288x2_d1

/-- The diagonal's cells: (k, k), one pair per node. -/
def diagCells : IVec S16384x2 32 :=
  concatenate S16384x2 1
    [⟨S16384x1, broadcastInDim S16384x1 ![0] bcast_S16384_S16384x1_0 (wrapNode (iotaInDim S16384 32 0))⟩,
     ⟨S16384x1, broadcastInDim S16384x1 ![0] bcast_S16384_S16384x1_0 (wrapNode (iotaInDim S16384 32 0))⟩]
    concatenates_S16384x1_S16384x1_S16384x2_d1

/-- The adjacency matrix: zeros, then each edge's probability written at its cell in the order of the edges, then 1
    written along the diagonal. -/
def adjOf (src dst : IVec S524288 32) (p : S524288.Idx → F .f32) : S16384x16384.Idx → F .f32 :=
  Host.scatter scatter_S16384x16384_S16384x2_S16384_n_01_01_1 (fun _ b => b)
    (Host.scatter scatter_S16384x16384_S524288x2_S524288_n_01_01_1 (fun _ b => b)
      (broadcastInDim S16384x16384 ![] bcast_S_S16384x16384 (constant (F := F) S_ .f32 0x00000000#32))
      (edgeCells src dst) p)
    diagCells
    (broadcastInDim S16384 ![] bcast_S_S16384 (constant (F := F) S_ .f32 0x3F800000#32))

end Cert.Adjacency

end
-- ==== Proof.KernelHost.lean ====
/-
  The kernel program's host operations, read as functions of the buffers they start from.

  Before the launch the program computes, from the argument arrays, the two ends of every edge, the pair matrix, the
  transposed weights, the first bias as a row [1, 128] and the second bias as a one-entry matrix [1, 1]; after the
  launch it builds the adjacency matrix from the two ends and the launch's output vector. Each result below is the
  operations' composed function of the buffer contents W the stretch starts from, whatever W is.
-/
import proofs.«151380_j77352361001298_1_alg».proof.Proof.Gen.KernelIdeal.Launch
import proofs.«151380_j77352361001298_1_alg».proof.Proof.Adjacency
import Idealize.ShloMosaic.Lib.StableHlo.Run

noncomputable section

namespace Cert.KernelHost

open Idealize.ShloMosaic Idealize.ShloMosaic.TcCoe Idealize.SL.Sem Idealize.ShloMosaic.StableHlo
open Cert.KernelIdeal Cert.KernelIdeal.Gen Cert.Adjacency

variable (W : Valuation τ sig (Elt Ideal))

/-- Before the launch: the sources of the edges. -/
theorem before_src : after (hostOps0 (F := Ideal)) W (Proc.devRef .tc main_v1)
    = srcIdx (W (Proc.devRef .tc main_arg1)) := by
  after_results
  rfl

/-- Before the launch: the targets of the edges. -/
theorem before_dst : after (hostOps0 (F := Ideal)) W (Proc.devRef .tc main_v3)
    = dstIdx (W (Proc.devRef .tc main_arg1)) := by
  after_results
  rfl

set_option maxHeartbeats 8000000 in
/-- Before the launch: the pair matrix. -/
theorem before_pair : after (hostOps0 (F := Ideal)) W (Proc.devRef .tc main_v18)
    = pairOf (F := Ideal) (W (Proc.devRef .tc main_arg0)) (W (Proc.devRef .tc main_arg1)) := by
  after_results
  rfl

/-- Before the launch: the transposed weights. -/
theorem before_weights : after (hostOps0 (F := Ideal)) W (Proc.devRef .tc main_v19)
    = weightsT (F := Ideal) (W (Proc.devRef .tc main_arg3)) := by
  after_results
  rfl

/-- Before the launch: the first bias as a row. -/
theorem before_bias1 : after (hostOps0 (F := Ideal)) W (Proc.devRef .tc main_v20)
    = shapeCast S1x128 (W (Proc.devRef .tc main_arg4) : S128.Idx → EReal) shapeCasts_S128_S1x128 := by
  after_results
  rfl

/-- Before the launch: the second bias as a one-entry matrix. -/
theorem before_bias2 : after (hostOps0 (F := Ideal)) W (Proc.devRef .tc main_v21)
    = shapeCast S1x1 (W (Proc.devRef .tc main_arg6) : S1.Idx → EReal) shapeCasts_S1_S1x1 := by
  after_results
  rfl

set_option maxHeartbeats 8000000 in
/-- After the launch: the adjacency matrix, from the two ends of every edge and the launch's output vector. -/
theorem after_adj : after (hostOps1 (F := Ideal)) W (Proc.devRef .tc main_v53)
    = adjOf (F := Ideal) (W (Proc.devRef .tc main_v1)) (W (Proc.devRef .tc main_v3)) (W (Proc.devRef .tc main_v22)) := by
  after_results
  rfl

end Cert.KernelHost

end
-- ==== Proof.Spec.lean ====
/-
  The adjacency matrix of learned edge probabilities, as one function of the argument arrays.

  From the node embeddings [16384, 128] and the edge list [2, 524288]: the pair matrix holds, for every edge, its
  source's embedding beside its target's. A two-layer perceptron (first layer through the transposed weights with an
  exponential linear unit, second layer with one output and the logistic function) takes each row of the pair matrix
  to that edge's probability. The adjacency matrix is zero, has each edge's probability at (source, target), written in
  the order of the edges, and 1 along the diagonal. The batch vector, the program's third argument, plays no part.
-/
import proofs.«151380_j77352361001298_1_alg».proof.Proof.Adjacency
import proofs.«151380_j77352361001298_1_alg».proof.Proof.EdgeProb

noncomputable section

namespace Cert.Spec

open Idealize.ShloMosaic Cert.KernelIdeal Cert.Adjacency Cert.EdgeProb

/-- The result of both programs on the extended reals, from the six arrays it depends on. -/
def adjacencyOf (a0 : S16384x128.Idx → EReal) (a1 : IVec S2x524288 32) (a3 : S128x256.Idx → EReal)
    (a4 : S128.Idx → EReal) (a5 : S1x128.Idx → EReal) (a6 : S1.Idx → EReal) : S16384x16384.Idx → EReal :=
  adjOf (F := Ideal) (srcIdx a1) (dstIdx a1)
    (probOf (pairOf (F := Ideal) a0 a1) (weightsT (F := Ideal) a3) a4 a5 a6)

end Cert.Spec

end
-- ==== Proof.LibDenseLayouts.lean ====
/-
  Small layouts that a row-wise dense layer meets, read at an index given by coordinates, at any extents and any
  element type: a column [a, 1] spread along its unit axis to [a, b]; a single entry [1, 1] spread down a column
  [a, 1]; a column [a, 1] read as the vector [a]; a vector of one entry read as [1, 1].
-/
import Idealize.ShloMosaic.Lib.ValueIdx
import Idealize.ShloMosaic.Lib.Pipeline.Value

namespace Cert.Lib.DenseLayouts

open Idealize.ShloMosaic Idealize.ShloMosaic.ValueIdx

/-- A column [a, 1] broadcast to [a, b] reads, at (i, j), the column's entry i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single entry [1, 1] broadcast down a column [a, 1] reads, at (i, u), that entry. -/
theorem broadcastTo_11_a1_apply {α : Type} {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ => rfl
  | ⟨1, _⟩ => rfl

/-- A column [a, 1] cast to the vector [a] reads, at i, the column's entry i. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector of one entry cast to [1, 1] reads, at (u, u'), that entry. -/
theorem shapeCast_1_11_apply {α : Type} (x : (⟨1, ![1]⟩ : Shape).Idx → α)
    (h : (⟨1, ![1]⟩ : Shape).ShapeCasts ⟨2, ![1, 1]⟩) (u u' : Fin 1) :
    shapeCast ⟨2, ![1, 1]⟩ x h (ix2 u u') = x (ix1 (0 : Fin 1)) :=
  shapeCast_apply x h _ _ (by
    have hu : u.val = 0 := by omega
    have hu' : u'.val = 0 := by omega
    rw [Shape.rowMajor_val_two, Shape.rowMajor_val_one]
    show (0 : ℕ) = u.val * 1 + u'.val
    omega)

end Cert.Lib.DenseLayouts
-- ==== Proof.KernelValue.lean ====
/-
  The kernel program's run, with its result named.

  The generated frame run ends with the launch's output vector at what the blocks wrote and with every other buffer at
  what the operations after the launch compute. The output vector is the vector of edge probabilities over the arrays
  the launch found, which the operations before the launch built from the arguments (the pair matrix, the transposed
  weights; the biases only change shape, [128] to [1, 128] and [1] to [1, 1]); the operations after the launch build the
  adjacency matrix from the two ends of every edge, again read off the arguments, and from that vector. So the result
  is the adjacency matrix of the specification, and the arguments end unchanged.
-/
import proofs.«151380_j77352361001298_1_alg».proof.Proof.Gen.KernelIdeal.Frame
import proofs.«151380_j77352361001298_1_alg».proof.Proof.KernelProb
import proofs.«151380_j77352361001298_1_alg».proof.Proof.KernelHost
import proofs.«151380_j77352361001298_1_alg».proof.Proof.Spec
import proofs.«151380_j77352361001298_1_alg».proof.Proof.LibDenseLayouts
import Idealize.ShloMosaic.Lib.ValueLayout

noncomputable section

namespace Cert.KernelValue

open Idealize.ShloMosaic Idealize.ShloMosaic.TcCoe Idealize.ShloMosaic.ValueIdx Idealize.SL.Sem
open Idealize.ShloMosaic.StableHlo
open Cert.KernelIdeal Cert.KernelIdeal.Gen Cert.Adjacency Cert.EdgeProb Cert.Spec

variable (m : (ℓ : Loc nD τ sig) → Buf (Elt Ideal) ℓ) (ρ : Dev nD → PrngReg)

/-- What the launch finds in a buffer is what the operations before it leave there. -/
theorem V_eq (c : Dev nD) (b : Ref sig .tc) :
    V m c b = after (hostOps0 (F := Ideal)) (fun b => m (c, b)) (Proc.devRef .tc b) := rfl

/-- The vector of probabilities over the arrays the launch finds is the vector over the arguments. -/
theorem probV_eq (c : Dev nD) :
    Cert.KernelProb.probV m c
      = probOf (pairOf (F := Ideal) (m ((c : Thread nD τ).loc main_arg0)) (m ((c : Thread nD τ).loc main_arg1)))
          (weightsT (F := Ideal) (m ((c : Thread nD τ).loc main_arg3)))
          (m ((c : Thread nD τ).loc main_arg4)) (m ((c : Thread nD τ).loc main_arg5)) (m ((c : Thread nD τ).loc main_arg6)) := by
  have hX : V m c main_v18 = pairOf (F := Ideal) (m ((c : Thread nD τ).loc main_arg0)) (m ((c : Thread nD τ).loc main_arg1)) :=
    (V_eq m c main_v18).trans (Cert.KernelHost.before_pair _)
  have hW : V m c main_v19 = weightsT (F := Ideal) (m ((c : Thread nD τ).loc main_arg3)) :=
    (V_eq m c main_v19).trans (Cert.KernelHost.before_weights _)
  have hb1 : V m c main_v20 = shapeCast S1x128 (m ((c : Thread nD τ).loc main_arg4) : S128.Idx → EReal) shapeCasts_S128_S1x128 :=
    (V_eq m c main_v20).trans (Cert.KernelHost.before_bias1 _)
  have hb2 : V m c main_v21 = shapeCast S1x1 (m ((c : Thread nD τ).loc main_arg6) : S1.Idx → EReal) shapeCasts_S1_S1x1 :=
    (V_eq m c main_v21).trans (Cert.KernelHost.before_bias2 _)
  unfold Cert.KernelProb.probV probOf
  rw [hX, hW, hb1, hb2, V_main_arg5 m c]
  congr 1
  · funext j
    exact shapeCast_a_1a_apply _ _ (0 : Fin 1) j
  · exact Cert.Lib.DenseLayouts.shapeCast_1_11_apply _ _ (0 : Fin 1) (0 : Fin 1)

/-- The program's result after the run is the adjacency matrix of the specification. -/
theorem tail_eq (c : Dev nD) :
    Pipeline.afterTail₀ cfgs (dats m) 0 (V0 m) [hostOps1] c main_v53
      = adjacencyOf (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6)) := by
  have hs : Pipeline.withArrays spec0 c (V0 m c) (fun w => (dats m 0 c).arrAt w cfg0.N) (Proc.devRef .tc main_v1)
      = srcIdx (m ((c : Thread nD τ).loc main_arg1)) :=
    (Pipeline.withArrays_of_ne _ c (V0 m c) _ main_v1 (by exact (by decide : ∀ w, Pipeline.arrRef spec0 w ≠ main_v1))).trans
      ((V_eq m c main_v1).trans (Cert.KernelHost.before_src _))
  have hd : Pipeline.withArrays spec0 c (V0 m c) (fun w => (dats m 0 c).arrAt w cfg0.N) (Proc.devRef .tc main_v3)
      = dstIdx (m ((c : Thread nD τ).loc main_arg1)) :=
    (Pipeline.withArrays_of_ne _ c (V0 m c) _ main_v3 (by exact (by decide : ∀ w, Pipeline.arrRef spec0 w ≠ main_v3))).trans
      ((V_eq m c main_v3).trans (Cert.KernelHost.before_dst _))
  have hp : Pipeline.withArrays spec0 c (V0 m c) (fun w => (dats m 0 c).arrAt w cfg0.N) (Proc.devRef .tc main_v22)
      = probOf (pairOf (F := Ideal) (m ((c : Thread nD τ).loc main_arg0)) (m ((c : Thread nD τ).loc main_arg1)))
          (weightsT (F := Ideal) (m ((c : Thread nD τ).loc main_arg3)))
          (m ((c : Thread nD τ).loc main_arg4)) (m ((c : Thread nD τ).loc main_arg5)) (m ((c : Thread nD τ).loc main_arg6)) :=
    (Pipeline.withArrays_arr spec0 launch0.win.arr_inj c _ _ 5).trans
      ((Cert.KernelProb.final m c).trans (probV_eq m c))
  unfold Pipeline.afterTail₀
  refine (Cert.KernelHost.after_adj _).trans ?_
  unfold adjacencyOf
  exact congr (congr (congrArg (adjOf (F := Ideal)) hs) hd) hp

/-- THE KERNEL PROGRAM'S RUN: every weakly fair execution terminates with the result buffer at the specification's
    adjacency matrix of the arguments, and the arguments unchanged. -/
theorem run : θ_run defs (onTc (τ := τ) (main (F := Ideal))) ⟨m, fun _ => 0, ρ⟩ fun r => ∀ c : Dev nD,
      r.2.mem ((c.tc : Thread nD τ).loc main_v53)
        = adjacencyOf (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v53 (Pipeline.mem_restRefs_of main_v53 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      (((h c).2 main_arg6 (Pipeline.mem_restRefs_of main_arg6 (by decide) (by decide))).trans (W_main_arg6 m (dats m) c))⟩)
    (run_main m ρ)

end Cert.KernelValue

end
-- ==== Proof.RefRun.lean ====
/-
  The reference program's run, read back.

  The reference is a straight line of 98 array operations once the three small functions it calls (the exponential
  linear unit and the two selections inside it) are laid out at their call sites over each call's own buffers. Run
  from any memory, every weakly fair execution ends with each buffer at the value the operations compute in order
  from the launch contents. The line is cut in three stretches: the gathers that build the pair matrix and the
  transposed weights (24 operations), the two dense layers with the unit and the logistic function between and after
  them (33 operations), and the two scatters that build the adjacency matrix (41 operations).
-/
import proofs.«151380_j77352361001298_1_alg».proof.Proof.Gen.ReferenceIdeal
import Idealize.ShloMosaic.Lib.StableHlo.Run
import Idealize.ShloMosaic.Lib.Pipeline.Regions

noncomputable section

namespace Cert.RefRun

open Cert.ReferenceIdeal Cert.ReferenceIdeal.Gen Idealize.ShloMosaic Idealize.ShloMosaic.TcCoe Idealize.SL.Sem
open Idealize.ShloMosaic.StableHlo

variable {F : FTy → Type} [FloatOps F]

/-- The first stretch: the two ends of every edge, the gathered embedding rows, the pair matrix, the transposed weights. -/
abbrev opsHead : List (HloOp τ sig (Elt F)) :=
  [ StableHlo.unary main_arg1 main_v0 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v0 main_v1 rfl shapeCasts_S1x524288_S524288,
    StableHlo.unary main_arg1 main_v2 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v2 main_v3 rfl shapeCasts_S1x524288_S524288,
    StableHlo.nullary main_c (constantI S_ 32 0#32),
    StableHlo.unary main_c main_v4 (broadcastInDim S524288 ![] bcast_S_S524288 : (⟨S_, .i32⟩ : BufTy).Contents (Elt F) → (⟨S524288, .i32⟩ : BufTy).Contents (Elt F)),
    StableHlo.binary main_v1 main_v4 main_v5 (cmpi .slt : (⟨S524288, .i32⟩ : BufTy).Contents (Elt F) → (⟨S524288, .i32⟩ : BufTy).Contents (Elt F) → (⟨S524288, .i1⟩ : BufTy).Contents (Elt F)),
    StableHlo.nullary main_c_0 (constantI S_ 32 16384#32),
    StableHlo.unary main_c_0 main_v6 (broadcastInDim S524288 ![] bcast_S_S524288 : (⟨S_, .i32⟩ : BufTy).Contents (Elt F) → (⟨S524288, .i32⟩ : BufTy).Contents (Elt F)),
    StableHlo.binary main_v1 main_v6 main_v7 (addi : (⟨S524288, .i32⟩ : BufTy).Contents (Elt F) → (⟨S524288, .i32⟩ : BufTy).Contents (Elt F) → (⟨S524288, .i32⟩ : BufTy).Contents (Elt F)),
    StableHlo.ternary main_v5 main_v7 main_v1 main_v8 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v8 main_v9 (broadcastInDim S524288x1 ![0] bcast_S524288_S524288x1_0 : (⟨S524288, .i32⟩ : BufTy).Contents (Elt F) → (⟨S524288x1, .i32⟩ : BufTy).Contents (Elt F)),
    StableHlo.binary main_arg0 main_v9 main_v10 ((fun x i => Host.gather gather_S16384x128_S524288x1_S524288x128_1_0_n_n_0_1_1128 x i) : (⟨S16384x128, .f32⟩ : BufTy).Contents (Elt F) → (⟨S524288x1, .i32⟩ : BufTy).Contents (Elt F) → (⟨S524288x128, .f32⟩ : BufTy).Contents (Elt F)),
    StableHlo.nullary main_c_1 (constantI S_ 32 0#32),
    StableHlo.unary main_c_1 main_v11 (broadcastInDim S524288 ![] bcast_S_S524288 : (⟨S_, .i32⟩ : BufTy).Contents (Elt F) → (⟨S524288, .i32⟩ : BufTy).Contents (Elt F)),
    StableHlo.binary main_v3 main_v11 main_v12 (cmpi .slt : (⟨S524288, .i32⟩ : BufTy).Contents (Elt F) → (⟨S524288, .i32⟩ : BufTy).Contents (Elt F) → (⟨S524288, .i1⟩ : BufTy).Contents (Elt F)),
    StableHlo.nullary main_c_2 (constantI S_ 32 16384#32),
    StableHlo.unary main_c_2 main_v13 (broadcastInDim S524288 ![] bcast_S_S524288 : (⟨S_, .i32⟩ : BufTy).Contents (Elt F) → (⟨S524288, .i32⟩ : BufTy).Contents (Elt F)),
    StableHlo.binary main_v3 main_v13 main_v14 (addi : (⟨S524288, .i32⟩ : BufTy).Contents (Elt F) → (⟨S524288, .i32⟩ : BufTy).Contents (Elt F) → (⟨S524288, .i32⟩ : BufTy).Contents (Elt F)),
    StableHlo.ternary main_v12 main_v14 main_v3 main_v15 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v15 main_v16 (broadcastInDim S524288x1 ![0] bcast_S524288_S524288x1_0 : (⟨S524288, .i32⟩ : BufTy).Contents (Elt F) → (⟨S524288x1, .i32⟩ : BufTy).Contents (Elt F)),
    StableHlo.binary main_arg0 main_v16 main_v17 ((fun x i => Host.gather gather_S16384x128_S524288x1_S524288x128_1_0_n_n_0_1_1128 x i) : (⟨S16384x128, .f32⟩ : BufTy).Contents (Elt F) → (⟨S524288x1, .i32⟩ : BufTy).Contents (Elt F) → (⟨S524288x128, .f32⟩ : BufTy).Contents (Elt F)),
    StableHlo.binary main_v10 main_v17 main_v18 ((fun a b => concatenate S524288x256 1 [⟨S524288x128, a⟩, ⟨S524288x128, b⟩] concatenates_S524288x128_S524288x128_S524288x256_d1) : (⟨S524288x128, .f32⟩ : BufTy).Contents (Elt F) → (⟨S524288x128, .f32⟩ : BufTy).Contents (Elt F) → (⟨S524288x256, .f32⟩ : BufTy).Contents (Elt F)),
    StableHlo.unary main_arg3 main_v19 ((transpose S256x128 [1, 0] · transposes_S128x256_S256x128_1_0) : (⟨S128x256, .f32⟩ : BufTy).Contents (Elt F) → (⟨S256x128, .f32⟩ : BufTy).Contents (Elt F)) ]

/-- The second stretch: the first layer, the exponential linear unit (its body and the two selections it calls laid out
    over the call's buffers), the second layer, the logistic function. -/
abbrev opsMid : List (HloOp τ sig (Elt F)) :=
  [ StableHlo.binary main_v18 main_v19 main_v20 ((fun l r => Host.dotGeneral dot_S524288x256_S256x128_S524288x128_1_0_0_1_n_n none l r) : (⟨S524288x256, .f32⟩ : BufTy).Contents (Elt F) → (⟨S256x128, .f32⟩ : BufTy).Contents (Elt F) → (⟨S524288x128, .f32⟩ : BufTy).Contents (Elt F)),
    StableHlo.unary main_arg4 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S524288x128 ![0, 1] bcast_S1x128_S524288x128_0_1 : (⟨S1x128, .f32⟩ : BufTy).Contents (Elt F) → (⟨S524288x128, .f32⟩ : BufTy).Contents (Elt F)),
    StableHlo.binary main_v20 main_v22 main_v23 (addf : (⟨S524288x128, .f32⟩ : BufTy).Contents (Elt F) → (⟨S524288x128, .f32⟩ : BufTy).Contents (Elt F) → (⟨S524288x128, .f32⟩ : BufTy).Contents (Elt F)),
    StableHlo.TRef.nullary main_call0.cst (constant S_ .f32 0x00000000#32),
    StableHlo.TRef.unary main_call0.cst main_call0.v0 (broadcastInDim S524288x128 ![] bcast_S_S524288x128),
    StableHlo.TRef.binary (.of main_v23) main_call0.v0 main_call0.v1 (cmpf .ogt),
    StableHlo.TRef.nullary main_call0.cst_0 (constant S_ .f32 0x00000000#32),
    StableHlo.TRef.unary main_call0.cst_0 main_call0.v2 (broadcastInDim S524288x128 ![] bcast_S_S524288x128),
    StableHlo.TRef.binary (.of main_v23) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S524288x128 ![] bcast_S_S524288x128),
    StableHlo.TRef.ternary main_call0.v3 main_call0.call0.v1 (.of main_v23) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S524288x128 ![] bcast_S_S524288x128),
    StableHlo.TRef.binary main_call0.v6 main_call0.v5 main_call0.v7 mulf,
    StableHlo.TRef.ternary main_call0.v1 (.of main_v23) main_call0.v7 main_call0.call1.v0 select,
    StableHlo.unary main_arg5 main_v25 ((transpose S128x1 [1, 0] · transposes_S1x128_S128x1_1_0) : (⟨S1x128, .f32⟩ : BufTy).Contents (Elt F) → (⟨S128x1, .f32⟩ : BufTy).Contents (Elt F)),
    StableHlo.binary main_v24 main_v25 main_v26 ((fun l r => Host.dotGeneral dot_S524288x128_S128x1_S524288x1_1_0_0_1_n_n none l r) : (⟨S524288x128, .f32⟩ : BufTy).Contents (Elt F) → (⟨S128x1, .f32⟩ : BufTy).Contents (Elt F) → (⟨S524288x1, .f32⟩ : BufTy).Contents (Elt F)),
    StableHlo.unary main_arg6 main_v27 (broadcastInDim S1x1 ![1] bcast_S1_S1x1_1 : (⟨S1, .f32⟩ : BufTy).Contents (Elt F) → (⟨S1x1, .f32⟩ : BufTy).Contents (Elt F)),
    StableHlo.unary main_v27 main_v28 (broadcastInDim S524288x1 ![0, 1] bcast_S1x1_S524288x1_0_1 : (⟨S1x1, .f32⟩ : BufTy).Contents (Elt F) → (⟨S524288x1, .f32⟩ : BufTy).Contents (Elt F)),
    StableHlo.binary main_v26 main_v28 main_v29 (addf : (⟨S524288x1, .f32⟩ : BufTy).Contents (Elt F) → (⟨S524288x1, .f32⟩ : BufTy).Contents (Elt F) → (⟨S524288x1, .f32⟩ : BufTy).Contents (Elt F)),
    StableHlo.reshape main_v29 main_v30 rfl shapeCasts_S524288x1_S524288,
    StableHlo.unary main_v30 main_v31 (Host.negf : (⟨S524288, .f32⟩ : BufTy).Contents (Elt F) → (⟨S524288, .f32⟩ : BufTy).Contents (Elt F)),
    StableHlo.unary main_v31 main_v32 (Host.exp : (⟨S524288, .f32⟩ : BufTy).Contents (Elt F) → (⟨S524288, .f32⟩ : BufTy).Contents (Elt F)),
    StableHlo.nullary main_cst (constant S_ .f32 0x3F800000#32),
    StableHlo.unary main_cst main_v33 (broadcastInDim S524288 ![] bcast_S_S524288 : (⟨S_, .f32⟩ : BufTy).Contents (Elt F) → (⟨S524288, .f32⟩ : BufTy).Contents (Elt F)),
    StableHlo.binary main_v33 main_v32 main_v34 (addf : (⟨S524288, .f32⟩ : BufTy).Contents (Elt F) → (⟨S524288, .f32⟩ : BufTy).Contents (Elt F) → (⟨S524288, .f32⟩ : BufTy).Contents (Elt F)),
    StableHlo.nullary main_cst_3 (constant S_ .f32 0x3F800000#32),
    StableHlo.unary main_cst_3 main_v35 (broadcastInDim S524288 ![] bcast_S_S524288 : (⟨S_, .f32⟩ : BufTy).Contents (Elt F) → (⟨S524288, .f32⟩ : BufTy).Contents (Elt F)),
    StableHlo.binary main_v35 main_v34 main_v36 (Host.divf : (⟨S524288, .f32⟩ : BufTy).Contents (Elt F) → (⟨S524288, .f32⟩ : BufTy).Contents (Elt F) → (⟨S524288, .f32⟩ : BufTy).Contents (Elt F)) ]

/-- The third stretch: the zero matrix, the edges' cells, the first scatter, the diagonal's cells, the second scatter. -/
abbrev opsTail : List (HloOp τ sig (Elt F)) :=
  [ StableHlo.nullary main_cst_4 (constant S_ .f32 0x00000000#32),
    StableHlo.unary main_cst_4 main_v37 (broadcastInDim S16384x16384 ![] bcast_S_S16384x16384 : (⟨S_, .f32⟩ : BufTy).Contents (Elt F) → (⟨S16384x16384, .f32⟩ : BufTy).Contents (Elt F)),
    StableHlo.nullary main_c_5 (constantI S_ 32 0#32),
    StableHlo.unary main_c_5 main_v38 (broadcastInDim S524288 ![] bcast_S_S524288 : (⟨S_, .i32⟩ : BufTy).Contents (Elt F) → (⟨S524288, .i32⟩ : BufTy).Contents (Elt F)),
    StableHlo.binary main_v1 main_v38 main_v39 (cmpi .slt : (⟨S524288, .i32⟩ : BufTy).Contents (Elt F) → (⟨S524288, .i32⟩ : BufTy).Contents (Elt F) → (⟨S524288, .i1⟩ : BufTy).Contents (Elt F)),
    StableHlo.nullary main_c_6 (constantI S_ 32 16384#32),
    StableHlo.unary main_c_6 main_v40 (broadcastInDim S524288 ![] bcast_S_S524288 : (⟨S_, .i32⟩ : BufTy).Contents (Elt F) → (⟨S524288, .i32⟩ : BufTy).Contents (Elt F)),
    StableHlo.binary main_v1 main_v40 main_v41 (addi : (⟨S524288, .i32⟩ : BufTy).Contents (Elt F) → (⟨S524288, .i32⟩ : BufTy).Contents (Elt F) → (⟨S524288, .i32⟩ : BufTy).Contents (Elt F)),
    StableHlo.ternary main_v39 main_v41 main_v1 main_v42 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_7 (constantI S_ 32 0#32),
    StableHlo.unary main_c_7 main_v43 (broadcastInDim S524288 ![] bcast_S_S524288 : (⟨S_, .i32⟩ : BufTy).Contents (Elt F) → (⟨S524288, .i32⟩ : BufTy).Contents (Elt F)),
    StableHlo.binary main_v3 main_v43 main_v44 (cmpi .slt : (⟨S524288, .i32⟩ : BufTy).Contents (Elt F) → (⟨S524288, .i32⟩ : BufTy).Contents (Elt F) → (⟨S524288, .i1⟩ : BufTy).Contents (Elt F)),
    StableHlo.nullary main_c_8 (constantI S_ 32 16384#32),
    StableHlo.unary main_c_8 main_v45 (broadcastInDim S524288 ![] bcast_S_S524288 : (⟨S_, .i32⟩ : BufTy).Contents (Elt F) → (⟨S524288, .i32⟩ : BufTy).Contents (Elt F)),
    StableHlo.binary main_v3 main_v45 main_v46 (addi : (⟨S524288, .i32⟩ : BufTy).Contents (Elt F) → (⟨S524288, .i32⟩ : BufTy).Contents (Elt F) → (⟨S524288, .i32⟩ : BufTy).Contents (Elt F)),
    StableHlo.ternary main_v44 main_v46 main_v3 main_v47 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v42 main_v48 (broadcastInDim S524288x1 ![0] bcast_S524288_S524288x1_0 : (⟨S524288, .i32⟩ : BufTy).Contents (Elt F) → (⟨S524288x1, .i32⟩ : BufTy).Contents (Elt F)),
    StableHlo.unary main_v47 main_v49 (broadcastInDim S524288x1 ![0] bcast_S524288_S524288x1_0 : (⟨S524288, .i32⟩ : BufTy).Contents (Elt F) → (⟨S524288x1, .i32⟩ : BufTy).Contents (Elt F)),
    StableHlo.binary main_v48 main_v49 main_v50 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.ternary main_v37 main_v50 main_v36 main_v51 ((fun x i u => Host.scatter scatter_S16384x16384_S524288x2_S524288_n_01_01_1 (fun _ b => b) x i u) : (⟨S16384x16384, .f32⟩ : BufTy).Contents (Elt F) → (⟨S524288x2, .i32⟩ : BufTy).Contents (Elt F) → (⟨S524288, .f32⟩ : BufTy).Contents (Elt F) → (⟨S16384x16384, .f32⟩ : BufTy).Contents (Elt F)),
    StableHlo.nullary main_v52 (iotaInDim S16384 32 0),
    StableHlo.nullary main_c_9 (constantI S_ 32 0#32),
    StableHlo.unary main_c_9 main_v53 (broadcastInDim S16384 ![] bcast_S_S16384 : (⟨S_, .i32⟩ : BufTy).Contents (Elt F) → (⟨S16384, .i32⟩ : BufTy).Contents (Elt F)),
    StableHlo.binary main_v52 main_v53 main_v54 (cmpi .slt : (⟨S16384, .i32⟩ : BufTy).Contents (Elt F) → (⟨S16384, .i32⟩ : BufTy).Contents (Elt F) → (⟨S16384, .i1⟩ : BufTy).Contents (Elt F)),
    StableHlo.nullary main_c_10 (constantI S_ 32 16384#32),
    StableHlo.unary main_c_10 main_v55 (broadcastInDim S16384 ![] bcast_S_S16384 : (⟨S_, .i32⟩ : BufTy).Contents (Elt F) → (⟨S16384, .i32⟩ : BufTy).Contents (Elt F)),
    StableHlo.binary main_v52 main_v55 main_v56 (addi : (⟨S16384, .i32⟩ : BufTy).Contents (Elt F) → (⟨S16384, .i32⟩ : BufTy).Contents (Elt F) → (⟨S16384, .i32⟩ : BufTy).Contents (Elt F)),
    StableHlo.ternary main_v54 main_v56 main_v52 main_v57 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_11 (constantI S_ 32 0#32),
    StableHlo.unary main_c_11 main_v58 (broadcastInDim S16384 ![] bcast_S_S16384 : (⟨S_, .i32⟩ : BufTy).Contents (Elt F) → (⟨S16384, .i32⟩ : BufTy).Contents (Elt F)),
    StableHlo.binary main_v52 main_v58 main_v59 (cmpi .slt : (⟨S16384, .i32⟩ : BufTy).Contents (Elt F) → (⟨S16384, .i32⟩ : BufTy).Contents (Elt F) → (⟨S16384, .i1⟩ : BufTy).Contents (Elt F)),
    StableHlo.nullary main_c_12 (constantI S_ 32 16384#32),
    StableHlo.unary main_c_12 main_v60 (broadcastInDim S16384 ![] bcast_S_S16384 : (⟨S_, .i32⟩ : BufTy).Contents (Elt F) → (⟨S16384, .i32⟩ : BufTy).Contents (Elt F)),
    StableHlo.binary main_v52 main_v60 main_v61 (addi : (⟨S16384, .i32⟩ : BufTy).Contents (Elt F) → (⟨S16384, .i32⟩ : BufTy).Contents (Elt F) → (⟨S16384, .i32⟩ : BufTy).Contents (Elt F)),
    StableHlo.ternary main_v59 main_v61 main_v52 main_v62 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v57 main_v63 (broadcastInDim S16384x1 ![0] bcast_S16384_S16384x1_0 : (⟨S16384, .i32⟩ : BufTy).Contents (Elt F) → (⟨S16384x1, .i32⟩ : BufTy).Contents (Elt F)),
    StableHlo.unary main_v62 main_v64 (broadcastInDim S16384x1 ![0] bcast_S16384_S16384x1_0 : (⟨S16384, .i32⟩ : BufTy).Contents (Elt F) → (⟨S16384x1, .i32⟩ : BufTy).Contents (Elt F)),
    StableHlo.binary main_v63 main_v64 main_v65 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.nullary main_cst_13 (constant S_ .f32 0x3F800000#32),
    StableHlo.unary main_cst_13 main_v66 (broadcastInDim S16384 ![] bcast_S_S16384 : (⟨S_, .f32⟩ : BufTy).Contents (Elt F) → (⟨S16384, .f32⟩ : BufTy).Contents (Elt F)),
    StableHlo.ternary main_v51 main_v65 main_v66 main_v67 ((fun x i u => Host.scatter scatter_S16384x16384_S16384x2_S16384_n_01_01_1 (fun _ b => b) x i u) : (⟨S16384x16384, .f32⟩ : BufTy).Contents (Elt F) → (⟨S16384x2, .i32⟩ : BufTy).Contents (Elt F) → (⟨S16384, .f32⟩ : BufTy).Contents (Elt F) → (⟨S16384x16384, .f32⟩ : BufTy).Contents (Elt F)) ]

/-- The whole line. -/
abbrev ops : List (HloOp τ sig (Elt F)) :=
  [ StableHlo.unary main_arg1 main_v0 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v0 main_v1 rfl shapeCasts_S1x524288_S524288,
    StableHlo.unary main_arg1 main_v2 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v2 main_v3 rfl shapeCasts_S1x524288_S524288,
    StableHlo.nullary main_c (constantI S_ 32 0#32),
    StableHlo.unary main_c main_v4 (broadcastInDim S524288 ![] bcast_S_S524288 : (⟨S_, .i32⟩ : BufTy).Contents (Elt F) → (⟨S524288, .i32⟩ : BufTy).Contents (Elt F)),
    StableHlo.binary main_v1 main_v4 main_v5 (cmpi .slt : (⟨S524288, .i32⟩ : BufTy).Contents (Elt F) → (⟨S524288, .i32⟩ : BufTy).Contents (Elt F) → (⟨S524288, .i1⟩ : BufTy).Contents (Elt F)),
    StableHlo.nullary main_c_0 (constantI S_ 32 16384#32),
    StableHlo.unary main_c_0 main_v6 (broadcastInDim S524288 ![] bcast_S_S524288 : (⟨S_, .i32⟩ : BufTy).Contents (Elt F) → (⟨S524288, .i32⟩ : BufTy).Contents (Elt F)),
    StableHlo.binary main_v1 main_v6 main_v7 (addi : (⟨S524288, .i32⟩ : BufTy).Contents (Elt F) → (⟨S524288, .i32⟩ : BufTy).Contents (Elt F) → (⟨S524288, .i32⟩ : BufTy).Contents (Elt F)),
    StableHlo.ternary main_v5 main_v7 main_v1 main_v8 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v8 main_v9 (broadcastInDim S524288x1 ![0] bcast_S524288_S524288x1_0 : (⟨S524288, .i32⟩ : BufTy).Contents (Elt F) → (⟨S524288x1, .i32⟩ : BufTy).Contents (Elt F)),
    StableHlo.binary main_arg0 main_v9 main_v10 ((fun x i => Host.gather gather_S16384x128_S524288x1_S524288x128_1_0_n_n_0_1_1128 x i) : (⟨S16384x128, .f32⟩ : BufTy).Contents (Elt F) → (⟨S524288x1, .i32⟩ : BufTy).Contents (Elt F) → (⟨S524288x128, .f32⟩ : BufTy).Contents (Elt F)),
    StableHlo.nullary main_c_1 (constantI S_ 32 0#32),
    StableHlo.unary main_c_1 main_v11 (broadcastInDim S524288 ![] bcast_S_S524288 : (⟨S_, .i32⟩ : BufTy).Contents (Elt F) → (⟨S524288, .i32⟩ : BufTy).Contents (Elt F)),
    StableHlo.binary main_v3 main_v11 main_v12 (cmpi .slt : (⟨S524288, .i32⟩ : BufTy).Contents (Elt F) → (⟨S524288, .i32⟩ : BufTy).Contents (Elt F) → (⟨S524288, .i1⟩ : BufTy).Contents (Elt F)),
    StableHlo.nullary main_c_2 (constantI S_ 32 16384#32),
    StableHlo.unary main_c_2 main_v13 (broadcastInDim S524288 ![] bcast_S_S524288 : (⟨S_, .i32⟩ : BufTy).Contents (Elt F) → (⟨S524288, .i32⟩ : BufTy).Contents (Elt F)),
    StableHlo.binary main_v3 main_v13 main_v14 (addi : (⟨S524288, .i32⟩ : BufTy).Contents (Elt F) → (⟨S524288, .i32⟩ : BufTy).Contents (Elt F) → (⟨S524288, .i32⟩ : BufTy).Contents (Elt F)),
    StableHlo.ternary main_v12 main_v14 main_v3 main_v15 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v15 main_v16 (broadcastInDim S524288x1 ![0] bcast_S524288_S524288x1_0 : (⟨S524288, .i32⟩ : BufTy).Contents (Elt F) → (⟨S524288x1, .i32⟩ : BufTy).Contents (Elt F)),
    StableHlo.binary main_arg0 main_v16 main_v17 ((fun x i => Host.gather gather_S16384x128_S524288x1_S524288x128_1_0_n_n_0_1_1128 x i) : (⟨S16384x128, .f32⟩ : BufTy).Contents (Elt F) → (⟨S524288x1, .i32⟩ : BufTy).Contents (Elt F) → (⟨S524288x128, .f32⟩ : BufTy).Contents (Elt F)),
    StableHlo.binary main_v10 main_v17 main_v18 ((fun a b => concatenate S524288x256 1 [⟨S524288x128, a⟩, ⟨S524288x128, b⟩] concatenates_S524288x128_S524288x128_S524288x256_d1) : (⟨S524288x128, .f32⟩ : BufTy).Contents (Elt F) → (⟨S524288x128, .f32⟩ : BufTy).Contents (Elt F) → (⟨S524288x256, .f32⟩ : BufTy).Contents (Elt F)),
    StableHlo.unary main_arg3 main_v19 ((transpose S256x128 [1, 0] · transposes_S128x256_S256x128_1_0) : (⟨S128x256, .f32⟩ : BufTy).Contents (Elt F) → (⟨S256x128, .f32⟩ : BufTy).Contents (Elt F)),
    StableHlo.binary main_v18 main_v19 main_v20 ((fun l r => Host.dotGeneral dot_S524288x256_S256x128_S524288x128_1_0_0_1_n_n none l r) : (⟨S524288x256, .f32⟩ : BufTy).Contents (Elt F) → (⟨S256x128, .f32⟩ : BufTy).Contents (Elt F) → (⟨S524288x128, .f32⟩ : BufTy).Contents (Elt F)),
    StableHlo.unary main_arg4 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S524288x128 ![0, 1] bcast_S1x128_S524288x128_0_1 : (⟨S1x128, .f32⟩ : BufTy).Contents (Elt F) → (⟨S524288x128, .f32⟩ : BufTy).Contents (Elt F)),
    StableHlo.binary main_v20 main_v22 main_v23 (addf : (⟨S524288x128, .f32⟩ : BufTy).Contents (Elt F) → (⟨S524288x128, .f32⟩ : BufTy).Contents (Elt F) → (⟨S524288x128, .f32⟩ : BufTy).Contents (Elt F)),
    StableHlo.TRef.nullary main_call0.cst (constant S_ .f32 0x00000000#32),
    StableHlo.TRef.unary main_call0.cst main_call0.v0 (broadcastInDim S524288x128 ![] bcast_S_S524288x128),
    StableHlo.TRef.binary (.of main_v23) main_call0.v0 main_call0.v1 (cmpf .ogt),
    StableHlo.TRef.nullary main_call0.cst_0 (constant S_ .f32 0x00000000#32),
    StableHlo.TRef.unary main_call0.cst_0 main_call0.v2 (broadcastInDim S524288x128 ![] bcast_S_S524288x128),
    StableHlo.TRef.binary (.of main_v23) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S524288x128 ![] bcast_S_S524288x128),
    StableHlo.TRef.ternary main_call0.v3 main_call0.call0.v1 (.of main_v23) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S524288x128 ![] bcast_S_S524288x128),
    StableHlo.TRef.binary main_call0.v6 main_call0.v5 main_call0.v7 mulf,
    StableHlo.TRef.ternary main_call0.v1 (.of main_v23) main_call0.v7 main_call0.call1.v0 select,
    StableHlo.unary main_arg5 main_v25 ((transpose S128x1 [1, 0] · transposes_S1x128_S128x1_1_0) : (⟨S1x128, .f32⟩ : BufTy).Contents (Elt F) → (⟨S128x1, .f32⟩ : BufTy).Contents (Elt F)),
    StableHlo.binary main_v24 main_v25 main_v26 ((fun l r => Host.dotGeneral dot_S524288x128_S128x1_S524288x1_1_0_0_1_n_n none l r) : (⟨S524288x128, .f32⟩ : BufTy).Contents (Elt F) → (⟨S128x1, .f32⟩ : BufTy).Contents (Elt F) → (⟨S524288x1, .f32⟩ : BufTy).Contents (Elt F)),
    StableHlo.unary main_arg6 main_v27 (broadcastInDim S1x1 ![1] bcast_S1_S1x1_1 : (⟨S1, .f32⟩ : BufTy).Contents (Elt F) → (⟨S1x1, .f32⟩ : BufTy).Contents (Elt F)),
    StableHlo.unary main_v27 main_v28 (broadcastInDim S524288x1 ![0, 1] bcast_S1x1_S524288x1_0_1 : (⟨S1x1, .f32⟩ : BufTy).Contents (Elt F) → (⟨S524288x1, .f32⟩ : BufTy).Contents (Elt F)),
    StableHlo.binary main_v26 main_v28 main_v29 (addf : (⟨S524288x1, .f32⟩ : BufTy).Contents (Elt F) → (⟨S524288x1, .f32⟩ : BufTy).Contents (Elt F) → (⟨S524288x1, .f32⟩ : BufTy).Contents (Elt F)),
    StableHlo.reshape main_v29 main_v30 rfl shapeCasts_S524288x1_S524288,
    StableHlo.unary main_v30 main_v31 (Host.negf : (⟨S524288, .f32⟩ : BufTy).Contents (Elt F) → (⟨S524288, .f32⟩ : BufTy).Contents (Elt F)),
    StableHlo.unary main_v31 main_v32 (Host.exp : (⟨S524288, .f32⟩ : BufTy).Contents (Elt F) → (⟨S524288, .f32⟩ : BufTy).Contents (Elt F)),
    StableHlo.nullary main_cst (constant S_ .f32 0x3F800000#32),
    StableHlo.unary main_cst main_v33 (broadcastInDim S524288 ![] bcast_S_S524288 : (⟨S_, .f32⟩ : BufTy).Contents (Elt F) → (⟨S524288, .f32⟩ : BufTy).Contents (Elt F)),
    StableHlo.binary main_v33 main_v32 main_v34 (addf : (⟨S524288, .f32⟩ : BufTy).Contents (Elt F) → (⟨S524288, .f32⟩ : BufTy).Contents (Elt F) → (⟨S524288, .f32⟩ : BufTy).Contents (Elt F)),
    StableHlo.nullary main_cst_3 (constant S_ .f32 0x3F800000#32),
    StableHlo.unary main_cst_3 main_v35 (broadcastInDim S524288 ![] bcast_S_S524288 : (⟨S_, .f32⟩ : BufTy).Contents (Elt F) → (⟨S524288, .f32⟩ : BufTy).Contents (Elt F)),
    StableHlo.binary main_v35 main_v34 main_v36 (Host.divf : (⟨S524288, .f32⟩ : BufTy).Contents (Elt F) → (⟨S524288, .f32⟩ : BufTy).Contents (Elt F) → (⟨S524288, .f32⟩ : BufTy).Contents (Elt F)),
    StableHlo.nullary main_cst_4 (constant S_ .f32 0x00000000#32),
    StableHlo.unary main_cst_4 main_v37 (broadcastInDim S16384x16384 ![] bcast_S_S16384x16384 : (⟨S_, .f32⟩ : BufTy).Contents (Elt F) → (⟨S16384x16384, .f32⟩ : BufTy).Contents (Elt F)),
    StableHlo.nullary main_c_5 (constantI S_ 32 0#32),
    StableHlo.unary main_c_5 main_v38 (broadcastInDim S524288 ![] bcast_S_S524288 : (⟨S_, .i32⟩ : BufTy).Contents (Elt F) → (⟨S524288, .i32⟩ : BufTy).Contents (Elt F)),
    StableHlo.binary main_v1 main_v38 main_v39 (cmpi .slt : (⟨S524288, .i32⟩ : BufTy).Contents (Elt F) → (⟨S524288, .i32⟩ : BufTy).Contents (Elt F) → (⟨S524288, .i1⟩ : BufTy).Contents (Elt F)),
    StableHlo.nullary main_c_6 (constantI S_ 32 16384#32),
    StableHlo.unary main_c_6 main_v40 (broadcastInDim S524288 ![] bcast_S_S524288 : (⟨S_, .i32⟩ : BufTy).Contents (Elt F) → (⟨S524288, .i32⟩ : BufTy).Contents (Elt F)),
    StableHlo.binary main_v1 main_v40 main_v41 (addi : (⟨S524288, .i32⟩ : BufTy).Contents (Elt F) → (⟨S524288, .i32⟩ : BufTy).Contents (Elt F) → (⟨S524288, .i32⟩ : BufTy).Contents (Elt F)),
    StableHlo.ternary main_v39 main_v41 main_v1 main_v42 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_7 (constantI S_ 32 0#32),
    StableHlo.unary main_c_7 main_v43 (broadcastInDim S524288 ![] bcast_S_S524288 : (⟨S_, .i32⟩ : BufTy).Contents (Elt F) → (⟨S524288, .i32⟩ : BufTy).Contents (Elt F)),
    StableHlo.binary main_v3 main_v43 main_v44 (cmpi .slt : (⟨S524288, .i32⟩ : BufTy).Contents (Elt F) → (⟨S524288, .i32⟩ : BufTy).Contents (Elt F) → (⟨S524288, .i1⟩ : BufTy).Contents (Elt F)),
    StableHlo.nullary main_c_8 (constantI S_ 32 16384#32),
    StableHlo.unary main_c_8 main_v45 (broadcastInDim S524288 ![] bcast_S_S524288 : (⟨S_, .i32⟩ : BufTy).Contents (Elt F) → (⟨S524288, .i32⟩ : BufTy).Contents (Elt F)),
    StableHlo.binary main_v3 main_v45 main_v46 (addi : (⟨S524288, .i32⟩ : BufTy).Contents (Elt F) → (⟨S524288, .i32⟩ : BufTy).Contents (Elt F) → (⟨S524288, .i32⟩ : BufTy).Contents (Elt F)),
    StableHlo.ternary main_v44 main_v46 main_v3 main_v47 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v42 main_v48 (broadcastInDim S524288x1 ![0] bcast_S524288_S524288x1_0 : (⟨S524288, .i32⟩ : BufTy).Contents (Elt F) → (⟨S524288x1, .i32⟩ : BufTy).Contents (Elt F)),
    StableHlo.unary main_v47 main_v49 (broadcastInDim S524288x1 ![0] bcast_S524288_S524288x1_0 : (⟨S524288, .i32⟩ : BufTy).Contents (Elt F) → (⟨S524288x1, .i32⟩ : BufTy).Contents (Elt F)),
    StableHlo.binary main_v48 main_v49 main_v50 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    StableHlo.ternary main_v37 main_v50 main_v36 main_v51 ((fun x i u => Host.scatter scatter_S16384x16384_S524288x2_S524288_n_01_01_1 (fun _ b => b) x i u) : (⟨S16384x16384, .f32⟩ : BufTy).Contents (Elt F) → (⟨S524288x2, .i32⟩ : BufTy).Contents (Elt F) → (⟨S524288, .f32⟩ : BufTy).Contents (Elt F) → (⟨S16384x16384, .f32⟩ : BufTy).Contents (Elt F)),
    StableHlo.nullary main_v52 (iotaInDim S16384 32 0),
    StableHlo.nullary main_c_9 (constantI S_ 32 0#32),
    StableHlo.unary main_c_9 main_v53 (broadcastInDim S16384 ![] bcast_S_S16384 : (⟨S_, .i32⟩ : BufTy).Contents (Elt F) → (⟨S16384, .i32⟩ : BufTy).Contents (Elt F)),
    StableHlo.binary main_v52 main_v53 main_v54 (cmpi .slt : (⟨S16384, .i32⟩ : BufTy).Contents (Elt F) → (⟨S16384, .i32⟩ : BufTy).Contents (Elt F) → (⟨S16384, .i1⟩ : BufTy).Contents (Elt F)),
    StableHlo.nullary main_c_10 (constantI S_ 32 16384#32),
    StableHlo.unary main_c_10 main_v55 (broadcastInDim S16384 ![] bcast_S_S16384 : (⟨S_, .i32⟩ : BufTy).Contents (Elt F) → (⟨S16384, .i32⟩ : BufTy).Contents (Elt F)),
    StableHlo.binary main_v52 main_v55 main_v56 (addi : (⟨S16384, .i32⟩ : BufTy).Contents (Elt F) → (⟨S16384, .i32⟩ : BufTy).Contents (Elt F) → (⟨S16384, .i32⟩ : BufTy).Contents (Elt F)),
    StableHlo.ternary main_v54 main_v56 main_v52 main_v57 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_11 (constantI S_ 32 0#32),
    StableHlo.unary main_c_11 main_v58 (broadcastInDim S16384 ![] bcast_S_S16384 : (⟨S_, .i32⟩ : BufTy).Contents (Elt F) → (⟨S16384, .i32⟩ : BufTy).Contents (Elt F)),
    StableHlo.binary main_v52 main_v58 main_v59 (cmpi .slt : (⟨S16384, .i32⟩ : BufTy).Contents (Elt F) → (⟨S16384, .i32⟩ : BufTy).Contents (Elt F) → (⟨S16384, .i1⟩ : BufTy).Contents (Elt F)),
    StableHlo.nullary main_c_12 (constantI S_ 32 16384#32),
    StableHlo.unary main_c_12 main_v60 (broadcastInDim S16384 ![] bcast_S_S16384 : (⟨S_, .i32⟩ : BufTy).Contents (Elt F) → (⟨S16384, .i32⟩ : BufTy).Contents (Elt F)),
    StableHlo.binary main_v52 main_v60 main_v61 (addi : (⟨S16384, .i32⟩ : BufTy).Contents (Elt F) → (⟨S16384, .i32⟩ : BufTy).Contents (Elt F) → (⟨S16384, .i32⟩ : BufTy).Contents (Elt F)),
    StableHlo.ternary main_v59 main_v61 main_v52 main_v62 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v57 main_v63 (broadcastInDim S16384x1 ![0] bcast_S16384_S16384x1_0 : (⟨S16384, .i32⟩ : BufTy).Contents (Elt F) → (⟨S16384x1, .i32⟩ : BufTy).Contents (Elt F)),
    StableHlo.unary main_v62 main_v64 (broadcastInDim S16384x1 ![0] bcast_S16384_S16384x1_0 : (⟨S16384, .i32⟩ : BufTy).Contents (Elt F) → (⟨S16384x1, .i32⟩ : BufTy).Contents (Elt F)),
    StableHlo.binary main_v63 main_v64 main_v65 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.nullary main_cst_13 (constant S_ .f32 0x3F800000#32),
    StableHlo.unary main_cst_13 main_v66 (broadcastInDim S16384 ![] bcast_S_S16384 : (⟨S_, .f32⟩ : BufTy).Contents (Elt F) → (⟨S16384, .f32⟩ : BufTy).Contents (Elt F)),
    StableHlo.ternary main_v51 main_v65 main_v66 main_v67 ((fun x i u => Host.scatter scatter_S16384x16384_S16384x2_S16384_n_01_01_1 (fun _ b => b) x i u) : (⟨S16384x16384, .f32⟩ : BufTy).Contents (Elt F) → (⟨S16384x2, .i32⟩ : BufTy).Contents (Elt F) → (⟨S16384, .f32⟩ : BufTy).Contents (Elt F) → (⟨S16384x16384, .f32⟩ : BufTy).Contents (Elt F)) ]

theorem ops_split : (ops : List (HloOp τ sig (Elt F))) = opsHead ++ (opsMid ++ opsTail) := rfl

/-- The printed program is that line: its two windows in order, the called functions' bodies unfolded at the calls. -/
theorem main_eq (c : Dev nD) : main (F := F) c = seq ops := by
  show (main_part0 (F := F) c >>= fun _ => main_part1 (F := F) c) = _
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub ..⟩

/-- From any memory with zero counters: every weakly fair execution of the reference terminates, and every final state
    has each buffer at the line's result over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- A line run after another is the two run in order. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The whole line is its three stretches in order. -/
theorem after_ops (V : Valuation τ sig (Elt F)) :
    after ops V = after opsTail (after opsMid (after opsHead V)) := by
  rw [ops_split, after_append, after_append]

end Cert.RefRun

end
-- ==== Proof.RefProb.lean ====
/-
  The reference's perceptron over all edges at once, and that it is the specification's vector of probabilities.

  The reference applies the two dense layers to the whole pair matrix: a general contraction with the transposed
  weights plus the bias spread over all rows; the exponential linear unit in a numerical library's expanded spelling;
  a contraction with the second layer's weight row transposed to a column, plus its bias; the column read as a vector;
  and the logistic function with its exponent negated. Read at edge e, the contractions are the plain finite sums over
  row e of the pair matrix, so the composition is the specification's probability of row e, the two spellings of the
  unit and of the logistic function agreeing on the extended reals.
-/
import proofs.«151380_j77352361001298_1_alg».proof.Proof.Gen.ReferenceIdeal
import proofs.«151380_j77352361001298_1_alg».proof.Proof.EdgeProb
import proofs.«151380_j77352361001298_1_alg».proof.Proof.LibPlainProduct
import proofs.«151380_j77352361001298_1_alg».proof.Proof.LibDenseLayouts
import Idealize.ShloMosaic.Lib.ValueIdx
import Idealize.ShloMosaic.Lib.ValueLayout
import Idealize.ShloMosaic.Lib.Pipeline.Value

noncomputable section

namespace Cert.RefProb

open Idealize.ShloMosaic Idealize.ShloMosaic.ValueIdx
open Cert.ReferenceIdeal Cert.ReferenceIdeal.Gen Cert.EdgeProb
open scoped BigOperators

/-! ## The perceptron as whole-array functions -/

/-- The first layer over all edges: the pair matrix against the transposed weights, plus the bias spread over the rows. -/
def refHidden (X : FVec Ideal S524288x256 .f32) (Wt : FVec Ideal S256x128 .f32) (b1 : FVec Ideal S128 .f32) : FVec Ideal S524288x128 .f32 :=
  addf (F := Ideal) (φ := .f32) (Host.dotGeneral (F := Ideal) (φ₁ := .f32) (φ₂ := .f32) dot_S524288x256_S256x128_S524288x128_1_0_0_1_n_n none X Wt)
    (broadcastInDim S524288x128 ![0, 1] bcast_S1x128_S524288x128_0_1 (broadcastInDim S1x128 ![1] bcast_S128_S1x128_1 b1))

/-- The exponential linear unit over all entries, in the library's expanded spelling. -/
def refAct (h : FVec Ideal S524288x128 .f32) : FVec Ideal S524288x128 .f32 :=
  select (cmpf (F := Ideal) (φ := .f32) .ogt h (broadcastInDim S524288x128 ![] bcast_S_S524288x128 (constant (F := Ideal) S_ .f32 0x00000000#32)))
    h
    (mulf (F := Ideal) (φ := .f32) (broadcastInDim S524288x128 ![] bcast_S_S524288x128 (constant (F := Ideal) S_ .f32 0x3F800000#32))
      (Host.expm1 (F := Ideal) (φ := .f32)
        (select (cmpf (F := Ideal) (φ := .f32) .ogt h (broadcastInDim S524288x128 ![] bcast_S_S524288x128 (constant (F := Ideal) S_ .f32 0x00000000#32)))
          (broadcastInDim S524288x128 ![] bcast_S_S524288x128 (id (constant (F := Ideal) S_ .f32 0x00000000#32))) h)))

/-- The second layer over all edges: the activations against the weight row as a column, plus the bias, read as a vector. -/
def refLogit (act : FVec Ideal S524288x128 .f32) (W2 : FVec Ideal S1x128 .f32) (b2 : FVec Ideal S1 .f32) : FVec Ideal S524288 .f32 :=
  shapeCast S524288
    (addf (F := Ideal) (φ := .f32)
      (Host.dotGeneral (F := Ideal) (φ₁ := .f32) (φ₂ := .f32) dot_S524288x128_S128x1_S524288x1_1_0_0_1_n_n none act
        (transpose S128x1 [1, 0] W2 transposes_S1x128_S128x1_1_0))
      (broadcastInDim S524288x1 ![0, 1] bcast_S1x1_S524288x1_0_1 (broadcastInDim S1x1 ![1] bcast_S1_S1x1_1 b2)))
    shapeCasts_S524288x1_S524288

/-- The logistic function over all logits, with the exponent negated. -/
def refSigmoid (l : FVec Ideal S524288 .f32) : FVec Ideal S524288 .f32 :=
  Host.divf (F := Ideal) (φ := .f32) (broadcastInDim S524288 ![] bcast_S_S524288 (constant (F := Ideal) S_ .f32 0x3F800000#32))
    (addf (F := Ideal) (φ := .f32) (broadcastInDim S524288 ![] bcast_S_S524288 (constant (F := Ideal) S_ .f32 0x3F800000#32))
      (Host.exp (F := Ideal) (φ := .f32) (Host.negf (F := Ideal) (φ := .f32) l)))

/-- The perceptron composed. -/
def refProb (X : FVec Ideal S524288x256 .f32) (Wt : FVec Ideal S256x128 .f32) (b1 : FVec Ideal S128 .f32) (W2 : FVec Ideal S1x128 .f32)
    (b2 : FVec Ideal S1 .f32) : FVec Ideal S524288 .f32 :=
  refSigmoid (refLogit (refAct (refHidden X Wt b1)) W2 b2)

/-! ## Read at an edge -/

/-- Entry (r, j) of the first layer is hidden value j of row r of the pair matrix. -/
theorem refHidden_apply (X : FVec Ideal S524288x256 .f32) (Wt : FVec Ideal S256x128 .f32) (b1 : FVec Ideal S128 .f32)
    (r : Fin 524288) (j : Fin 128) :
    refHidden X Wt b1 (ix2 r j) = hiddenVal (fun k => X (ix2 r k)) (fun k j => Wt (ix2 k j)) (fun j => b1 (ix1 j)) j := by
  unfold refHidden hiddenVal
  rw [addf_apply]
  congr 1
  · exact Cert.Lib.PlainProduct.dotGeneral_apply (d := dot_S524288x256_S256x128_S524288x128_1_0_0_1_n_n)
      ⟨rfl, rfl, rfl, rfl, rfl, rfl⟩ rfl rfl none _ X Wt r j
  · rw [broadcastInDim_apply ![0, 1] bcast_S1x128_S524288x128_0_1 _ (ix2 r j) (ix2 (0 : Fin 1) j)
        (fun a => by match a with | ⟨0, _⟩ => rfl | ⟨1, _⟩ => rfl),
      broadcastInDim_apply ![1] bcast_S128_S1x128_1 b1 (ix2 (0 : Fin 1) j) (ix1 j)
        (fun a => by match a with | ⟨0, _⟩ => rfl)]

/-- The unit over all entries, at an entry, is the expanded unit of that entry. -/
theorem refAct_apply (h : FVec Ideal S524288x128 .f32) (i : S524288x128.Idx) : refAct h i = eluExpanded (h i) := rfl

/-- Entry r of the second layer is the logit of row r's activations. -/
theorem refLogit_apply (act : FVec Ideal S524288x128 .f32) (W2 : FVec Ideal S1x128 .f32) (b2 : FVec Ideal S1 .f32) (r : Fin 524288) :
    refLogit act W2 b2 (ix1 r)
      = logit (fun j => act (ix2 r j)) (fun j => W2 (ix2 (0 : Fin 1) j)) (b2 (ix1 (0 : Fin 1))) := by
  unfold refLogit logit
  rw [Cert.Lib.DenseLayouts.shapeCast_a1_a_apply, addf_apply]
  congr 1
  · refine (Cert.Lib.PlainProduct.dotGeneral_apply (d := dot_S524288x128_S128x1_S524288x1_1_0_0_1_n_n)
      ⟨rfl, rfl, rfl, rfl, rfl, rfl⟩ rfl rfl none _ act _ r (0 : Fin 1)).trans ?_
    exact Finset.sum_congr rfl fun k _ => by rw [transpose_ix2_apply]
  · rw [broadcastInDim_apply ![0, 1] bcast_S1x1_S524288x1_0_1 _ (ix2 r (0 : Fin 1)) (ix2 (0 : Fin 1) (0 : Fin 1))
        (fun a => by match a with | ⟨0, _⟩ => rfl | ⟨1, _⟩ => rfl),
      broadcastInDim_apply ![1] bcast_S1_S1x1_1 b2 (ix2 (0 : Fin 1) (0 : Fin 1)) (ix1 (0 : Fin 1))
        (fun a => by match a with | ⟨0, _⟩ => rfl)]

/-- The logistic function over all logits, at an entry, is the negated-exponent spelling of that entry. -/
theorem refSigmoid_apply (l : FVec Ideal S524288 .f32) (i : S524288.Idx) : refSigmoid l i = logisticNeg (l i) := rfl

/-- THE PERCEPTRON OVER ALL EDGES IS THE SPECIFICATION'S VECTOR OF PROBABILITIES. -/
theorem refProb_eq (X : FVec Ideal S524288x256 .f32) (Wt : FVec Ideal S256x128 .f32) (b1 : FVec Ideal S128 .f32)
    (W2 : FVec Ideal S1x128 .f32) (b2 : FVec Ideal S1 .f32) : refProb X Wt b1 W2 b2 = probOf X Wt b1 W2 b2 := by
  funext e
  obtain ⟨r, rfl⟩ : ∃ r : Fin 524288, e = ix1 r := ⟨e 0, eq_ix1 e⟩
  unfold refProb
  rw [refSigmoid_apply, refLogit_apply, logisticNeg_eq]
  show _ = rowProb _ _ _ _ _
  unfold rowProb
  refine congrArg logistic (congrArg (fun a => logit a _ _) (funext fun j => ?_))
  rw [refAct_apply, eluExpanded_eq, refHidden_apply]

end Cert.RefProb

end
-- ==== Proof.RefValue.lean ====
/-
  What the reference program computes, stretch by stretch, and that it is the specification's adjacency matrix.

  The first stretch leaves the two ends of every edge, the pair matrix and the transposed weights; the third builds the
  adjacency matrix from the two ends and the vector of probabilities: both are the whole-array functions the kernel
  program's host operations are too. The second stretch is the perceptron over the whole pair matrix at once, which is
  the specification's vector of probabilities. No operation writes an argument array.
-/
import proofs.«151380_j77352361001298_1_alg».proof.Proof.RefRun
import proofs.«151380_j77352361001298_1_alg».proof.Proof.Spec
import proofs.«151380_j77352361001298_1_alg».proof.Proof.RefProb

noncomputable section

namespace Cert.RefValue

open Idealize.ShloMosaic Idealize.ShloMosaic.TcCoe Idealize.ShloMosaic.ValueIdx Idealize.SL.Sem
open Idealize.ShloMosaic.StableHlo
open Cert.ReferenceIdeal Cert.ReferenceIdeal.Gen Cert.RefRun Cert.RefProb Cert.Adjacency Cert.EdgeProb Cert.Spec
open scoped BigOperators

/-! ## The three stretches over any starting contents -/

variable (W : Valuation τ sig (Elt Ideal))

theorem head_src : after (opsHead (F := Ideal)) W (Proc.devRef .tc main_v1) = srcIdx (W (Proc.devRef .tc main_arg1)) := by
  after_results
  rfl

theorem head_dst : after (opsHead (F := Ideal)) W (Proc.devRef .tc main_v3) = dstIdx (W (Proc.devRef .tc main_arg1)) := by
  after_results
  rfl

set_option maxHeartbeats 8000000 in
theorem head_pair : after (opsHead (F := Ideal)) W (Proc.devRef .tc main_v18)
    = pairOf (F := Ideal) (W (Proc.devRef .tc main_arg0)) (W (Proc.devRef .tc main_arg1)) := by
  after_results
  rfl

theorem head_weights : after (opsHead (F := Ideal)) W (Proc.devRef .tc main_v19)
    = weightsT (F := Ideal) (W (Proc.devRef .tc main_arg3)) := by
  after_results
  rfl

theorem head_arg4 : after (opsHead (F := Ideal)) W (Proc.devRef .tc main_arg4) = W (Proc.devRef .tc main_arg4) := by
  after_results
theorem head_arg5 : after (opsHead (F := Ideal)) W (Proc.devRef .tc main_arg5) = W (Proc.devRef .tc main_arg5) := by
  after_results
theorem head_arg6 : after (opsHead (F := Ideal)) W (Proc.devRef .tc main_arg6) = W (Proc.devRef .tc main_arg6) := by
  after_results

set_option maxHeartbeats 8000000 in
theorem mid_prob : after (opsMid (F := Ideal)) W (Proc.devRef .tc main_v36)
    = refProb (W (Proc.devRef .tc main_v18)) (W (Proc.devRef .tc main_v19)) (W (Proc.devRef .tc main_arg4))
        (W (Proc.devRef .tc main_arg5)) (W (Proc.devRef .tc main_arg6)) := by
  after_results
  rfl

set_option maxHeartbeats 2000000 in
theorem mid_src : after (opsMid (F := Ideal)) W (Proc.devRef .tc main_v1) = W (Proc.devRef .tc main_v1) := by
  after_results
set_option maxHeartbeats 2000000 in
theorem mid_dst : after (opsMid (F := Ideal)) W (Proc.devRef .tc main_v3) = W (Proc.devRef .tc main_v3) := by
  after_results

set_option maxHeartbeats 8000000 in
theorem tail_adj : after (opsTail (F := Ideal)) W (Proc.devRef .tc main_v67)
    = adjOf (F := Ideal) (W (Proc.devRef .tc main_v1)) (W (Proc.devRef .tc main_v3)) (W (Proc.devRef .tc main_v36)) := by
  after_results
  rfl

/-- THE REFERENCE'S RESULT over any starting contents: the specification's adjacency matrix of the arguments. -/
theorem result_eq : after (ops (F := Ideal)) W (Proc.devRef .tc main_v67)
    = adjacencyOf (W (Proc.devRef .tc main_arg0)) (W (Proc.devRef .tc main_arg1)) (W (Proc.devRef .tc main_arg3))
        (W (Proc.devRef .tc main_arg4)) (W (Proc.devRef .tc main_arg5)) (W (Proc.devRef .tc main_arg6)) := by
  rw [after_ops, tail_adj, mid_src, mid_dst, mid_prob, head_src, head_dst, head_pair, head_weights, head_arg4, head_arg5,
    head_arg6, refProb_eq]
  rfl

/-! ## No operation of the line writes an argument array -/

set_option maxHeartbeats 4000000 in
theorem keep_arg0 : after (ops (F := Ideal)) W (Proc.devRef .tc main_arg0) = W (Proc.devRef .tc main_arg0) := by
  after_results
set_option maxHeartbeats 4000000 in
theorem keep_arg1 : after (ops (F := Ideal)) W (Proc.devRef .tc main_arg1) = W (Proc.devRef .tc main_arg1) := by
  after_results
set_option maxHeartbeats 4000000 in
theorem keep_arg2 : after (ops (F := Ideal)) W (Proc.devRef .tc main_arg2) = W (Proc.devRef .tc main_arg2) := by
  after_results
set_option maxHeartbeats 4000000 in
theorem keep_arg3 : after (ops (F := Ideal)) W (Proc.devRef .tc main_arg3) = W (Proc.devRef .tc main_arg3) := by
  after_results
set_option maxHeartbeats 4000000 in
theorem keep_arg4 : after (ops (F := Ideal)) W (Proc.devRef .tc main_arg4) = W (Proc.devRef .tc main_arg4) := by
  after_results
set_option maxHeartbeats 4000000 in
theorem keep_arg5 : after (ops (F := Ideal)) W (Proc.devRef .tc main_arg5) = W (Proc.devRef .tc main_arg5) := by
  after_results
set_option maxHeartbeats 4000000 in
theorem keep_arg6 : after (ops (F := Ideal)) W (Proc.devRef .tc main_arg6) = W (Proc.devRef .tc main_arg6) := by
  after_results

end Cert.RefValue

end
-- ==== Proof.lean ====
/-
  The kernel program and the reference compute one adjacency matrix.

  Both programs build the pair matrix (for every edge, its source's embedding beside its target's) by the same gathers,
  and both end by the same two scatters: each edge's probability written at (source, target) in the order of the edges,
  then 1 along the diagonal. Between the two, the kernel program launches a kernel over 128 blocks of 4096 edges whose
  body is a two-layer perceptron with an exponential linear unit and a logistic output, and the reference applies the
  same perceptron to all edges at once through general contractions and a numerical library's spellings of the unit
  and of the logistic function. On the extended reals each edge's probability is the same function of that edge's row
  of the pair matrix in both (Proof/EdgeProb.lean: the two spellings agree at every argument, so no finiteness of the
  inputs is used), hence the two results are the specification's matrix (Proof/Spec.lean) of arguments that agree.

  The frames of the two kernel programs are the generated ones; the reference, which has no kernel, runs as a straight
  line of 98 operations (Proof/RefRun.lean), none of which writes an argument. The idealization rewrote nothing, so
  there is nothing to preserve.
-/
import proofs.«151380_j77352361001298_1_alg».proof.Defs
import proofs.«151380_j77352361001298_1_alg».proof.Proof.Gen.Kernel
import proofs.«151380_j77352361001298_1_alg».proof.Proof.Gen.Kernel.Frame
import proofs.«151380_j77352361001298_1_alg».proof.Proof.Gen.KernelIdeal
import proofs.«151380_j77352361001298_1_alg».proof.Proof.Gen.KernelIdeal.Frame
import proofs.«151380_j77352361001298_1_alg».proof.Proof.Gen.ReferenceIdeal
import proofs.«151380_j77352361001298_1_alg».proof.Proof.Gen.Pre_finite_inputs
import proofs.«151380_j77352361001298_1_alg».proof.Proof.KernelValue
import proofs.«151380_j77352361001298_1_alg».proof.Proof.RefRun
import proofs.«151380_j77352361001298_1_alg».proof.Proof.RefValue
import proofs.«151380_j77352361001298_1_alg».proof.Proof.Spec

noncomputable section

namespace Cert.Proof

open Idealize.ShloMosaic Idealize.ShloMosaic.TcCoe Idealize.SL.Sem

/-- The printed kernel program runs and leaves its arguments as they were: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs as a straight line of operations, none of which writes an argument. -/
theorem frame_reference : Cert.frame_ReferenceIdeal := fun m ρ _ =>
  (θ_run Cert.ReferenceIdeal.defs _ _).mono (fun _ h c =>
    ⟨(h c Cert.ReferenceIdeal.main_arg0).trans (Cert.RefValue.keep_arg0 _),
      (h c Cert.ReferenceIdeal.main_arg1).trans (Cert.RefValue.keep_arg1 _),
      (h c Cert.ReferenceIdeal.main_arg2).trans (Cert.RefValue.keep_arg2 _),
      (h c Cert.ReferenceIdeal.main_arg3).trans (Cert.RefValue.keep_arg3 _),
      (h c Cert.ReferenceIdeal.main_arg4).trans (Cert.RefValue.keep_arg4 _),
      (h c Cert.ReferenceIdeal.main_arg5).trans (Cert.RefValue.keep_arg5 _),
      (h c Cert.ReferenceIdeal.main_arg6).trans (Cert.RefValue.keep_arg6 _)⟩)
    (Cert.RefRun.run_main (F := Ideal) m ρ)

/-- The idealization rewrote no operation. -/
theorem preserves : Cert.preserves_Kernel_KernelIdeal := trivial

/-- From memories that agree on the arguments both programs end with the specification's adjacency matrix of those
    arguments in their result buffers. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c =>
    ⟨(h c Cert.ReferenceIdeal.main_v67).trans ((Cert.RefValue.result_eq _).trans ?_),
      (h c Cert.ReferenceIdeal.main_arg0).trans (Cert.RefValue.keep_arg0 _),
      (h c Cert.ReferenceIdeal.main_arg1).trans (Cert.RefValue.keep_arg1 _),
      (h c Cert.ReferenceIdeal.main_arg2).trans (Cert.RefValue.keep_arg2 _),
      (h c Cert.ReferenceIdeal.main_arg3).trans (Cert.RefValue.keep_arg3 _),
      (h c Cert.ReferenceIdeal.main_arg4).trans (Cert.RefValue.keep_arg4 _),
      (h c Cert.ReferenceIdeal.main_arg5).trans (Cert.RefValue.keep_arg5 _),
      (h c Cert.ReferenceIdeal.main_arg6).trans (Cert.RefValue.keep_arg6 _)⟩)
    (Cert.RefRun.run_main (F := Ideal) m' ρ')
  obtain ⟨e0, e1, -, e3, e4, e5, e6⟩ := hagree c
  show Cert.Spec.adjacencyOf
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = _
  rw [e0, e1, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
